-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_kp_extent" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x3 : Shape := ⟨2, ![40000, 3]⟩
abbrev S40000x32 : Shape := ⟨2, ![40000, 32]⟩
abbrev S40000x64 : Shape := ⟨2, ![40000, 64]⟩
abbrev S15x64x128 : Shape := ⟨3, ![15, 64, 128]⟩
abbrev S15x3 : Shape := ⟨2, ![15, 3]⟩
abbrev S_ : Shape := ⟨0, ![]⟩

class Facts : Prop where
  bcast_S_S40000x3 : S_.BroadcastsInDim S40000x3 (![] : Fin 0 → Fin S40000x3.rank)
  reducesTo_S40000x3_S_d0_1 : S40000x3.ReducesTo [0, 1] S_
  h_S_ : 0 < S_.numel
  bcast_S_S40000x64 : S_.BroadcastsInDim S40000x64 (![] : Fin 0 → Fin S40000x64.rank)
  reducesTo_S40000x64_S_d0_1 : S40000x64.ReducesTo [0, 1] S_
  bcast_S_S15x64x128 : S_.BroadcastsInDim S15x64x128 (![] : Fin 0 → Fin S15x64x128.rank)
  reducesTo_S15x64x128_S_d0_1_2 : S15x64x128.ReducesTo [0, 1, 2] S_
  bcast_S_S15x3 : S_.BroadcastsInDim S15x3 (![] : Fin 0 → Fin S15x3.rank)
  reducesTo_S15x3_S_d0_1 : S15x3.ReducesTo [0, 1] S_

variable [Facts]

def fn_part1 {F : FTy → Type} [FloatOps F] (main_arg5 : FVec F S15x3 .f32) (main_v13 : IVec S_ 1) (main_v16 : IVec S15x64x128 1) : IVec S_ 1 :=
  let main_c_5 : IVec S_ 1 := constantI S_ 1 1#1
  let main_v17 : IVec S_ 1 := (fun x v => Host.reduce IntOp.andi x v reducesTo_S15x64x128_S_d0_1_2 h_S_) main_v16 main_c_5
  let main_v18 : IVec S_ 1 := andi main_v13 main_v17
  let main_v19 : FVec F S15x3 .f32 := Host.absf main_arg5
  let main_cst_6 : FVec F S_ .f32 := constant S_ .f32 0x7F800000#32
  let main_v20 : FVec F S15x3 .f32 := broadcastInDim S15x3 ![] bcast_S_S15x3 main_cst_6
  let main_v21 : IVec S15x3 1 := cmpf .olt main_v19 main_v20
  let main_c_7 : IVec S_ 1 := constantI S_ 1 1#1
  let main_v22 : IVec S_ 1 := (fun x v => Host.reduce IntOp.andi x v reducesTo_S15x3_S_d0_1 h_S_) main_v21 main_c_7
  let main_v23 : IVec S_ 1 := andi main_v18 main_v22
  main_v23

def fn {F : FTy → Type} [FloatOps F] (main_arg0 : FVec F S40000x3 .f32) (main_arg1 : FVec F S40000x3 .f32) (main_arg2 : IVec S40000x32 32) (main_arg3 : FVec F S40000x64 .f32) (main_arg4 : FVec F S15x64x128 .f32) (main_arg5 : FVec F S15x3 .f32) : IVec S_ 1 :=
  let main_v0 : FVec F S40000x3 .f32 := Host.absf main_arg0
  let main_cst : FVec F S_ .f32 := constant S_ .f32 0x7F800000#32
  let main_v1 : FVec F S40000x3 .f32 := broadcastInDim S40000x3 ![] bcast_S_S40000x3 main_cst
  let main_v2 : IVec S40000x3 1 := cmpf .olt main_v0 main_v1
  let main_c : IVec S_ 1 := constantI S_ 1 1#1
  let main_v3 : IVec S_ 1 := (fun x v => Host.reduce IntOp.andi x v reducesTo_S40000x3_S_d0_1 h_S_) main_v2 main_c
  let main_v4 : FVec F S40000x3 .f32 := Host.absf main_arg1
  let main_cst_0 : FVec F S_ .f32 := constant S_ .f32 0x7F800000#32
  let main_v5 : FVec F S40000x3 .f32 := broadcastInDim S40000x3 ![] bcast_S_S40000x3 main_cst_0
  let main_v6 : IVec S40000x3 1 := cmpf .olt main_v4 main_v5
  let main_c_1 : IVec S_ 1 := constantI S_ 1 1#1
  let main_v7 : IVec S_ 1 := (fun x v => Host.reduce IntOp.andi x v reducesTo_S40000x3_S_d0_1 h_S_) main_v6 main_c_1
  let main_v8 : IVec S_ 1 := andi main_v3 main_v7
  let main_v9 : FVec F S40000x64 .f32 := Host.absf main_arg3
  let main_cst_2 : FVec F S_ .f32 := constant S_ .f32 0x7F800000#32
  let main_v10 : FVec F S40000x64 .f32 := broadcastInDim S40000x64 ![] bcast_S_S40000x64 main_cst_2
  let main_v11 : IVec S40000x64 1 := cmpf .olt main_v9 main_v10
  let main_c_3 : IVec S_ 1 := constantI S_ 1 1#1
  let main_v12 : IVec S_ 1 := (fun x v => Host.reduce IntOp.andi x v reducesTo_S40000x64_S_d0_1 h_S_) main_v11 main_c_3
  let main_v13 : IVec S_ 1 := andi main_v8 main_v12
  let main_v14 : FVec F S15x64x128 .f32 := Host.absf main_arg4
  let main_cst_4 : FVec F S_ .f32 := constant S_ .f32 0x7F800000#32
  let main_v15 : FVec F S15x64x128 .f32 := broadcastInDim S15x64x128 ![] bcast_S_S15x64x128 main_cst_4
  let main_v16 : IVec S15x64x128 1 := cmpf .olt main_v14 main_v15
  fn_part1 (F := F) main_arg5 main_v13 main_v16
-- ==== Kernel.lean ====
abbrev S40000x3 : Shape := ⟨2, ![40000, 3]⟩
abbrev S40000x32 : Shape := ⟨2, ![40000, 32]⟩
abbrev S40000x64 : Shape := ⟨2, ![40000, 64]⟩
abbrev S15x64x128 : Shape := ⟨3, ![15, 64, 128]⟩
abbrev S15x3 : Shape := ⟨2, ![15, 3]⟩
abbrev S1x3 : Shape := ⟨2, ![1, 3]⟩
abbrev S_ : Shape := ⟨0, ![]⟩
abbrev S40001x3 : Shape := ⟨2, ![40001, 3]⟩
abbrev S1x64 : Shape := ⟨2, ![1, 64]⟩
abbrev S40001x64 : Shape := ⟨2, ![40001, 64]⟩
abbrev S40000x32x1 : Shape := ⟨3, ![40000, 32, 1]⟩
abbrev S40000x32x3 : Shape := ⟨3, ![40000, 32, 3]⟩
abbrev S40000x1x3 : Shape := ⟨3, ![40000, 1, 3]⟩
abbrev S40000x32x64 : Shape := ⟨3, ![40000, 32, 64]⟩
abbrev S40000x128 : Shape := ⟨2, ![40000, 128]⟩
abbrev S800x32x3 : Shape := ⟨3, ![800, 32, 3]⟩
abbrev S800x32x64 : Shape := ⟨3, ![800, 32, 64]⟩
abbrev S800x128 : Shape := ⟨2, ![800, 128]⟩
abbrev S1x15x1x3 : Shape := ⟨4, ![1, 15, 1, 3]⟩
abbrev S800x1x32x3 : Shape := ⟨4, ![800, 1, 32, 3]⟩
abbrev S800x15x32x3 : Shape := ⟨4, ![800, 15, 32, 3]⟩
abbrev S800x15x32 : Shape := ⟨3, ![800, 15, 32]⟩
abbrev S800x15x64 : Shape := ⟨3, ![800, 15, 64]⟩
abbrev S800x1x64 : Shape := ⟨3, ![800, 1, 64]⟩
abbrev S800x64 : Shape := ⟨2, ![800, 64]⟩
abbrev S1x64x128 : Shape := ⟨3, ![1, 64, 128]⟩
abbrev S64x128 : Shape := ⟨2, ![64, 128]⟩
abbrev S800x32 : Shape := ⟨2, ![800, 32]⟩
abbrev S800 : Shape := ⟨1, ![800]⟩
abbrev S800x1 : Shape := ⟨2, ![800, 1]⟩

abbrev nBuf : Space → Nat
  | .hbm => 37
  | .vmem => 8
  | .smem => 0
  | _ => 0

abbrev bufTy : (tb : Table) → Fin (tcTables nBuf tb) → BufTy
  | .hbm, ⟨0, _⟩ => ⟨S40000x3, .f32⟩
  | .hbm, ⟨1, _⟩ => ⟨S40000x3, .f32⟩
  | .hbm, ⟨2, _⟩ => ⟨S40000x32, .i32⟩
  | .hbm, ⟨3, _⟩ => ⟨S40000x64, .f32⟩
  | .hbm, ⟨4, _⟩ => ⟨S15x64x128, .f32⟩
  | .hbm, ⟨5, _⟩ => ⟨S15x3, .f32⟩
  | .hbm, ⟨6, _⟩ => ⟨S1x3, .f32⟩
  | .hbm, ⟨7, _⟩ => ⟨S_, .f32⟩
  | .hbm, ⟨8, _⟩ => ⟨S1x3, .f32⟩
  | .hbm, ⟨9, _⟩ => ⟨S40001x3, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S40001x64, .f32⟩
  | .hbm, ⟨14, _⟩ => ⟨S_, .i32⟩
  | .hbm, ⟨15, _⟩ => ⟨S40000x32, .i32⟩
  | .hbm, ⟨16, _⟩ => ⟨S40000x32, .i1⟩
  | .hbm, ⟨17, _⟩ => ⟨S_, .i32⟩
  | .hbm, ⟨18, _⟩ => ⟨S40000x32, .i32⟩
  | .hbm, ⟨19, _⟩ => ⟨S40000x32, .i32⟩
  | .hbm, ⟨20, _⟩ => ⟨S40000x32, .i32⟩
  | .hbm, ⟨21, _⟩ => ⟨S40000x32x1, .i32⟩
  | .hbm, ⟨22, _⟩ => ⟨S40000x32x3, .f32⟩
  | .hbm, ⟨23, _⟩ => ⟨S40000x1x3, .f32⟩
  | .hbm, ⟨24, _⟩ => ⟨S40000x32x3, .f32⟩
  | .hbm, ⟨25, _⟩ => ⟨S40000x32x3, .f32⟩
  | .hbm, ⟨26, _⟩ => ⟨S_, .i32⟩
  | .hbm, ⟨27, _⟩ => ⟨S40000x32, .i32⟩
  | .hbm, ⟨28, _⟩ => ⟨S40000x32, .i1⟩
  | .hbm, ⟨29, _⟩ => ⟨S_, .i32⟩
  | .hbm, ⟨30, _⟩ => ⟨S40000x32, .i32⟩
  | .hbm, ⟨31, _⟩ => ⟨S40000x32, .i32⟩
  | .hbm, ⟨32, _⟩ => ⟨S40000x32, .i32⟩
  | .hbm, ⟨33, _⟩ => ⟨S40000x32x1, .i32⟩
  | .hbm, ⟨34, _⟩ => ⟨S40000x32x64, .f32⟩
  | .hbm, ⟨35, _⟩ => ⟨S15x64x128, .bf16⟩
  | .hbm, ⟨36, _⟩ => ⟨S40000x128, .f32⟩
  | .local _ .vmem, ⟨0, _⟩ => ⟨S800x32x3, .f32⟩
  | .local _ .vmem, ⟨1, _⟩ => ⟨S800x32x3, .f32⟩
  | .local _ .vmem, ⟨2, _⟩ => ⟨S800x32x64, .f32⟩
  | .local _ .vmem, ⟨3, _⟩ => ⟨S800x32x64, .f32⟩
  | .local _ .vmem, ⟨4, _⟩ => ⟨S15x64x128, .bf16⟩
  | .local _ .vmem, ⟨5, _⟩ => ⟨S15x3, .f32⟩
  | .local _ .vmem, ⟨6, _⟩ => ⟨S800x128, .f32⟩
  | .local _ .vmem, ⟨7, _⟩ => ⟨S800x128, .f32⟩
  | _, _ => ⟨S40000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x32x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S15x64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S800x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S40000x3_S1x3_0_0 : S40000x3.Slices ![0, 0] S1x3
  bcast_S_S1x3 : S_.BroadcastsInDim S1x3 (![] : Fin 0 → Fin S1x3.rank)
  concatenates_S40000x3_S1x3_S40001x3_d0 : Shape.Concatenates [S40000x3, S1x3] S40001x3 0
  slices_S40000x64_S1x64_0_0 : S40000x64.Slices ![0, 0] S1x64
  bcast_S_S1x64 : S_.BroadcastsInDim S1x64 (![] : Fin 0 → Fin S1x64.rank)
  concatenates_S40000x64_S1x64_S40001x64_d0 : Shape.Concatenates [S40000x64, S1x64] S40001x64 0
  bcast_S_S40000x32 : S_.BroadcastsInDim S40000x32 (![] : Fin 0 → Fin S40000x32.rank)
  bcast_S40000x32_S40000x32x1_0_1 : S40000x32.BroadcastsInDim S40000x32x1 (![0, 1] : Fin 2 → Fin S40000x32x1.rank)
  bcast_S40000x3_S40000x1x3_0_2 : S40000x3.BroadcastsInDim S40000x1x3 (![0, 2] : Fin 2 → Fin S40000x1x3.rank)
  bcast_S40000x1x3_S40000x32x3_0_1_2 : S40000x1x3.BroadcastsInDim S40000x32x3 (![0, 1, 2] : Fin 3 → Fin S40000x32x3.rank)
  bitsLt_bf16_f32 : FTy.bits .bf16 < FTy.bits .f32
  inb_S800x32x3_S800x32x3_0_0_0 : ∀ a, (![0, 0, 0] : Fin 3 → Nat) a + S800x32x3.size a ≤ S800x32x3.size a
  h_S800x32x3 : 0 < S800x32x3.numel
  shapeCasts_S800x32x3_S800x32x3 : S800x32x3.ShapeCasts S800x32x3
  inb_S15x3_S15x3_0_0 : ∀ a, (![0, 0] : Fin 2 → Nat) a + S15x3.size a ≤ S15x3.size a
  h_S15x3 : 0 < S15x3.numel
  shapeCasts_S15x3_S1x15x1x3 : S15x3.ShapeCasts S1x15x1x3
  shapeCasts_S800x32x3_S800x1x32x3 : S800x32x3.ShapeCasts S800x1x32x3
  broadcasts_S1x15x1x3_S800x15x32x3 : S1x15x1x3.Broadcasts S800x15x32x3
  broadcasts_S800x1x32x3_S800x15x32x3 : S800x1x32x3.Broadcasts S800x15x32x3
  reduces_S800x15x32x3_S800x15x32 : S800x15x32x3.Reduces [3] S800x15x32
  inb_S800x32x64_S800x32x64_0_0_0 : ∀ a, (![0, 0, 0] : Fin 3 → Nat) a + S800x32x64.size a ≤ S800x32x64.size a
  h_S800x32x64 : 0 < S800x32x64.numel
  shapeCasts_S800x32x64_S800x32x64 : S800x32x64.ShapeCasts S800x32x64
  inb_S15x64x128_S15x64x128_0_0_0 : ∀ a, (![0, 0, 0] : Fin 3 → Nat) a + S15x64x128.size a ≤ S15x64x128.size a
  h_S15x64x128 : 0 < S15x64x128.numel
  shapeCasts_S15x64x128_S15x64x128 : S15x64x128.ShapeCasts S15x64x128
  slices_S800x15x64_o0_0_0_S800x1x64 : S800x15x64.Slices ![0, 0, 0] S800x1x64
  shapeCasts_S800x1x64_S800x64 : S800x1x64.ShapeCasts S800x64
  slices_S15x64x128_o0_0_0_S1x64x128 : S15x64x128.Slices ![0, 0, 0] S1x64x128
  shapeCasts_S1x64x128_S64x128 : S1x64x128.ShapeCasts S64x128
  slices_S800x15x64_o0_1_0_S800x1x64 : S800x15x64.Slices ![0, 1, 0] S800x1x64
  slices_S15x64x128_o1_0_0_S1x64x128 : S15x64x128.Slices ![1, 0, 0] S1x64x128
  slices_S800x15x64_o0_2_0_S800x1x64 : S800x15x64.Slices ![0, 2, 0] S800x1x64
  slices_S15x64x128_o2_0_0_S1x64x128 : S15x64x128.Slices ![2, 0, 0] S1x64x128
  slices_S800x15x64_o0_3_0_S800x1x64 : S800x15x64.Slices ![0, 3, 0] S800x1x64
  slices_S15x64x128_o3_0_0_S1x64x128 : S15x64x128.Slices ![3, 0, 0] S1x64x128
  slices_S800x15x64_o0_4_0_S800x1x64 : S800x15x64.Slices ![0, 4, 0] S800x1x64
  slices_S15x64x128_o4_0_0_S1x64x128 : S15x64x128.Slices ![4, 0, 0] S1x64x128
  slices_S800x15x64_o0_5_0_S800x1x64 : S800x15x64.Slices ![0, 5, 0] S800x1x64
  slices_S15x64x128_o5_0_0_S1x64x128 : S15x64x128.Slices ![5, 0, 0] S1x64x128
  slices_S800x15x64_o0_6_0_S800x1x64 : S800x15x64.Slices ![0, 6, 0] S800x1x64
  slices_S15x64x128_o6_0_0_S1x64x128 : S15x64x128.Slices ![6, 0, 0] S1x64x128
  slices_S800x15x64_o0_7_0_S800x1x64 : S800x15x64.Slices ![0, 7, 0] S800x1x64
  slices_S15x64x128_o7_0_0_S1x64x128 : S15x64x128.Slices ![7, 0, 0] S1x64x128
  slices_S800x15x64_o0_8_0_S800x1x64 : S800x15x64.Slices ![0, 8, 0] S800x1x64
  slices_S15x64x128_o8_0_0_S1x64x128 : S15x64x128.Slices ![8, 0, 0] S1x64x128
  slices_S800x15x64_o0_9_0_S800x1x64 : S800x15x64.Slices ![0, 9, 0] S800x1x64
  slices_S15x64x128_o9_0_0_S1x64x128 : S15x64x128.Slices ![9, 0, 0] S1x64x128
  slices_S800x15x64_o0_10_0_S800x1x64 : S800x15x64.Slices ![0, 10, 0] S800x1x64
  slices_S15x64x128_o10_0_0_S1x64x128 : S15x64x128.Slices ![10, 0, 0] S1x64x128
  slices_S800x15x64_o0_11_0_S800x1x64 : S800x15x64.Slices ![0, 11, 0] S800x1x64
  slices_S15x64x128_o11_0_0_S1x64x128 : S15x64x128.Slices ![11, 0, 0] S1x64x128
  slices_S800x15x64_o0_12_0_S800x1x64 : S800x15x64.Slices ![0, 12, 0] S800x1x64
  slices_S15x64x128_o12_0_0_S1x64x128 : S15x64x128.Slices ![12, 0, 0] S1x64x128
  slices_S800x15x64_o0_13_0_S800x1x64 : S800x15x64.Slices ![0, 13, 0] S800x1x64
  slices_S15x64x128_o13_0_0_S1x64x128 : S15x64x128.Slices ![13, 0, 0] S1x64x128
  slices_S800x15x64_o0_14_0_S800x1x64 : S800x15x64.Slices ![0, 14, 0] S800x1x64
  slices_S15x64x128_o14_0_0_S1x64x128 : S15x64x128.Slices ![14, 0, 0] S1x64x128
  reduces_S800x32x64_S800x32 : S800x32x64.Reduces [2] S800x32
  natLt_1_32 : 1 < 32
  reduces_S800x32_S800 : S800x32.Reduces [1] S800
  shapeCasts_S800_S800x1 : S800.ShapeCasts S800x1
  broadcasts_S800x1_S800x128 : S800x1.Broadcasts S800x128
  inb_S800x128_S800x128_0_0 : ∀ a, (![0, 0] : Fin 2 → Nat) a + S800x128.size a ≤ S800x128.size a
  h_S800x128 : 0 < S800x128.numel
  gather_S40001x3_S40000x32x1_S40000x32x3_2_0_n_n_0_2_13_wf : GatherDims.WF S40001x3 S40000x32x1 S40000x32x3 [2] [0] [] [0] [] 2 ![1, 3]
  gather_S40001x64_S40000x32x1_S40000x32x64_2_0_n_n_0_2_164_wf : GatherDims.WF S40001x64 S40000x32x1 S40000x32x64 [2] [0] [] [0] [] 2 ![1, 64]
  dot_S800x15x32_S800x32x64_S800x15x64_2_1_1_2_0_0_wf : DotDims.WF S800x15x32 S800x32x64 S800x15x64 [2] [1] [1] [2] [0] [0]
  dot_S800x64_S64x128_S800x128_1_0_0_1_n_n_wf : DotDims.WF S800x64 S64x128 S800x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x32x3.size a ≤ S40000x32x3.size a
  hwx0_0 : ∀ i : grid0.Coords, EltTy.bits .f32 = 32 ∨ (Rect.block (s := S40000x32x3) S800x32x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x32x64.size a ≤ S40000x32x64.size a
  hwx0_1 : ∀ i : grid0.Coords, EltTy.bits .f32 = 32 ∨ (Rect.block (s := S40000x32x64) S800x32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S15x64x128.size a ≤ S15x64x128.size a
  hwx0_2 : ∀ i : grid0.Coords, EltTy.bits .bf16 = 32 ∨ (Rect.block (s := S15x64x128) S15x64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S15x3.size a ≤ S15x3.size a
  hwx0_3 : ∀ i : grid0.Coords, EltTy.bits .f32 = 32 ∨ (Rect.block (s := S15x3) S15x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S800x128.size a ≤ S40000x128.size a
  hwx0_4 : ∀ i : grid0.Coords, EltTy.bits .f32 = 32 ∨ (Rect.block (s := S40000x128) S800x128.size (cc0_transform_4 i) (hinb0_4 i)).WholeWords (EltTy.packing .f32)

variable [Facts₀]

def gather_S40001x3_S40000x32x1_S40000x32x3_2_0_n_n_0_2_13 : GatherDims S40001x3 S40000x32x1 S40000x32x3 where
  offsetDims := [2]
  collapsedSliceDims := [0]
  operandBatchingDims := []
  startIndicesBatchingDims := []
  startIndexMap := [0]
  indexVectorDim := 2
  sliceSizes := ![1, 3]
  wf := gather_S40001x3_S40000x32x1_S40000x32x3_2_0_n_n_0_2_13_wf
def gather_S40001x64_S40000x32x1_S40000x32x64_2_0_n_n_0_2_164 : GatherDims S40001x64 S40000x32x1 S40000x32x64 where
  offsetDims := [2]
  collapsedSliceDims := [0]
  operandBatchingDims := []
  startIndicesBatchingDims := []
  startIndexMap := [0]
  indexVectorDim := 2
  sliceSizes := ![1, 64]
  wf := gather_S40001x64_S40000x32x1_S40000x32x64_2_0_n_n_0_2_164_wf
def dot_S800x15x32_S800x32x64_S800x15x64_2_1_1_2_0_0 : DotDims S800x15x32 S800x32x64 S800x15x64 where
  lhsContracting := [2]
  rhsContracting := [1]
  lhsNonContracting := [1]
  rhsNonContracting := [2]
  lhsBatch := [0]
  rhsBatch := [0]
  wf := dot_S800x15x32_S800x32x64_S800x15x64_2_1_1_2_0_0_wf
def dot_S800x64_S64x128_S800x128_1_0_0_1_n_n : DotDims S800x64 S64x128 S800x128 where
  lhsContracting := [1]
  rhsContracting := [0]
  lhsNonContracting := [0]
  rhsNonContracting := [1]
  lhsBatch := []
  rhsBatch := []
  wf := dot_S800x64_S64x128_S800x128_1_0_0_1_n_n_wf

abbrev win0_0 : Pipeline.Window sig grid0 :=
  Pipeline.Window.ofSpec (Memref.whole main_v15) S800x32x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S800x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S15x64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S15x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S800x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S40000x3 : Shape := ⟨2, ![40000, 3]⟩
abbrev S40000x32 : Shape := ⟨2, ![40000, 32]⟩
abbrev S40000x64 : Shape := ⟨2, ![40000, 64]⟩
abbrev S15x64x128 : Shape := ⟨3, ![15, 64, 128]⟩
abbrev S15x3 : Shape := ⟨2, ![15, 3]⟩
abbrev S1x3 : Shape := ⟨2, ![1, 3]⟩
abbrev S_ : Shape := ⟨0, ![]⟩
abbrev S40001x3 : Shape := ⟨2, ![40001, 3]⟩
abbrev S40000x32x1 : Shape := ⟨3, ![40000, 32, 1]⟩
abbrev S40000x32x3 : Shape := ⟨3, ![40000, 32, 3]⟩
abbrev S40000x1x3 : Shape := ⟨3, ![40000, 1, 3]⟩
abbrev S40000x32x1x3 : Shape := ⟨4, ![40000, 32, 1, 3]⟩
abbrev S1x1x15x3 : Shape := ⟨4, ![1, 1, 15, 3]⟩
abbrev S40000x32x15x3 : Shape := ⟨4, ![40000, 32, 15, 3]⟩
abbrev S40000x32x15 : Shape := ⟨3, ![40000, 32, 15]⟩
abbrev S40000x15x32 : Shape := ⟨3, ![40000, 15, 32]⟩
abbrev S1x64 : Shape := ⟨2, ![1, 64]⟩
abbrev S40001x64 : Shape := ⟨2, ![40001, 64]⟩
abbrev S40000x32x64 : Shape := ⟨3, ![40000, 32, 64]⟩
abbrev S40000x15x64 : Shape := ⟨3, ![40000, 15, 64]⟩
abbrev S15x40000x64 : Shape := ⟨3, ![15, 40000, 64]⟩
abbrev S15x40000x128 : Shape := ⟨3, ![15, 40000, 128]⟩
abbrev S40000x128 : Shape := ⟨2, ![40000, 128]⟩
abbrev S40000 : Shape := ⟨1, ![40000]⟩
abbrev S40000x1 : Shape := ⟨2, ![40000, 1]⟩

abbrev nBuf : Space → Nat
  | .hbm => 75
  | .vmem => 0
  | .smem => 0
  | _ => 0

abbrev bufTy : (tb : Table) → Fin (tcTables nBuf tb) → BufTy
  | .hbm, ⟨0, _⟩ => ⟨S40000x3, .f32⟩
  | .hbm, ⟨1, _⟩ => ⟨S40000x3, .f32⟩
  | .hbm, ⟨2, _⟩ => ⟨S40000x32, .i32⟩
  | .hbm, ⟨3, _⟩ => ⟨S40000x64, .f32⟩
  | .hbm, ⟨4, _⟩ => ⟨S15x64x128, .f32⟩
  | .hbm, ⟨5, _⟩ => ⟨S15x3, .f32⟩
  | .hbm, ⟨6, _⟩ => ⟨S1x3, .f32⟩
  | .hbm, ⟨7, _⟩ => ⟨S_, .f32⟩
  | .hbm, ⟨8, _⟩ => ⟨S1x3, .f32⟩
  | .hbm, ⟨9, _⟩ => ⟨S40001x3, .f32⟩
  | .hbm, ⟨10, _⟩ => ⟨S_, .i32⟩
  | .hbm, ⟨11, _⟩ => ⟨S40000x32, .i32⟩
  | .hbm, ⟨12, _⟩ => ⟨S40000x32, .i1⟩
  | .hbm, ⟨13, _⟩ => ⟨S_, .i32⟩
  | .hbm, ⟨14, _⟩ => ⟨S40000x32, .i32⟩
  | .hbm, ⟨15, _⟩ => ⟨S40000x32, .i32⟩
  | .hbm, ⟨16, _⟩ => ⟨S40000x32, .i32⟩
  | .hbm, ⟨17, _⟩ => ⟨S40000x32x1, .i32⟩
  | .hbm, ⟨18, _⟩ => ⟨S40000x32x3, .f32⟩
  | .hbm, ⟨19, _⟩ => ⟨S40000x1x3, .f32⟩
  | .hbm, ⟨20, _⟩ => ⟨S40000x32x3, .f32⟩
  | .hbm, ⟨21, _⟩ => ⟨S40000x32x3, .f32⟩
  | .hbm, ⟨22, _⟩ => ⟨S40000x32x1x3, .f32⟩
  | .hbm, ⟨23, _⟩ => ⟨S1x1x15x3, .f32⟩
  | .hbm, ⟨24, _⟩ => ⟨S40000x32x15x3, .f32⟩
  | .hbm, ⟨25, _⟩ => ⟨S40000x32x15x3, .f32⟩
  | .hbm, ⟨26, _⟩ => ⟨S40000x32x15x3, .f32⟩
  | .hbm, ⟨27, _⟩ => ⟨S40000x32x15x3, .f32⟩
  | .hbm, ⟨28, _⟩ => ⟨S_, .f32⟩
  | .hbm, ⟨29, _⟩ => ⟨S40000x32x15, .f32⟩
  | .hbm, ⟨30, _⟩ => ⟨S40000x32x15, .f32⟩
  | .hbm, ⟨31, _⟩ => ⟨S_, .f32⟩
  | .hbm, ⟨32, _⟩ => ⟨S40000x32x15, .f32⟩
  | .hbm, ⟨33, _⟩ => ⟨S40000x32x15, .f32⟩
  | .hbm, ⟨34, _⟩ => ⟨S_, .f32⟩
  | .hbm, ⟨35, _⟩ => ⟨S40000x32x15, .f32⟩
  | .hbm, ⟨36, _⟩ => ⟨S40000x32x15, .f32⟩
  | .hbm, ⟨37, _⟩ => ⟨S_, .f32⟩
  | .hbm, ⟨38, _⟩ => ⟨S_, .f32⟩
  | .hbm, ⟨39, _⟩ => ⟨S40000x32x15, .f32⟩
  | .hbm, ⟨40, _⟩ => ⟨S40000x32x15, .f32⟩
  | .hbm, ⟨41, _⟩ => ⟨S40000x15x32, .f32⟩
  | .hbm, ⟨42, _⟩ => ⟨S1x64, .f32⟩
  | .hbm, ⟨43, _⟩ => ⟨S_, .f32⟩
  | .hbm, ⟨44, _⟩ => ⟨S1x64, .f32⟩
  | .hbm, ⟨45, _⟩ => ⟨S40001x64, .f32⟩
  | .hbm, ⟨46, _⟩ => ⟨S_, .i32⟩
  | .hbm, ⟨47, _⟩ => ⟨S40000x32, .i32⟩
  | .hbm, ⟨48, _⟩ => ⟨S40000x32, .i1⟩
  | .hbm, ⟨49, _⟩ => ⟨S_, .i32⟩
  | .hbm, ⟨50, _⟩ => ⟨S40000x32, .i32⟩
  | .hbm, ⟨51, _⟩ => ⟨S40000x32, .i32⟩
  | .hbm, ⟨52, _⟩ => ⟨S40000x32, .i32⟩
  | .hbm, ⟨53, _⟩ => ⟨S40000x32x1, .i32⟩
  | .hbm, ⟨54, _⟩ => ⟨S40000x32x64, .f32⟩
  | .hbm, ⟨55, _⟩ => ⟨S40000x15x64, .f32⟩
  | .hbm, ⟨56, _⟩ => ⟨S15x40000x64, .f32⟩
  | .hbm, ⟨57, _⟩ => ⟨S15x40000x128, .f32⟩
  | .hbm, ⟨58, _⟩ => ⟨S_, .f32⟩
  | .hbm, ⟨59, _⟩ => ⟨S40000x128, .f32⟩
  | .hbm, ⟨60, _⟩ => ⟨S_, .f32⟩
  | .hbm, ⟨61, _⟩ => ⟨S40000x32, .f32⟩
  | .hbm, ⟨62, _⟩ => ⟨S_, .f32⟩
  | .hbm, ⟨63, _⟩ => ⟨S40000x32, .f32⟩
  | .hbm, ⟨64, _⟩ => ⟨S40000x32, .i1⟩
  | .hbm, ⟨65, _⟩ => ⟨S40000x32, .i32⟩
  | .hbm, ⟨66, _⟩ => ⟨S_, .i32⟩
  | .hbm, ⟨67, _⟩ => ⟨S40000, .i32⟩
  | .hbm, ⟨68, _⟩ => ⟨S_, .i32⟩
  | .hbm, ⟨69, _⟩ => ⟨S40000, .i32⟩
  | .hbm, ⟨70, _⟩ => ⟨S40000, .i32⟩
  | .hbm, ⟨71, _⟩ => ⟨S40000, .f32⟩
  | .hbm, ⟨72, _⟩ => ⟨S40000x1, .f32⟩
  | .hbm, ⟨73, _⟩ => ⟨S40000x128, .f32⟩
  | .hbm, ⟨74, _⟩ => ⟨S40000x128, .f32⟩
  | _, _ => ⟨S40000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_c_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]

class Facts₀ : Prop where
  slices_S40000x3_S1x3_0_0 : S40000x3.Slices ![0, 0] S1x3
  bcast_S_S1x3 : S_.BroadcastsInDim S1x3 (![] : Fin 0 → Fin S1x3.rank)
  concatenates_S40000x3_S1x3_S40001x3_d0 : Shape.Concatenates [S40000x3, S1x3] S40001x3 0
  bcast_S_S40000x32 : S_.BroadcastsInDim S40000x32 (![] : Fin 0 → Fin S40000x32.rank)
  bcast_S40000x32_S40000x32x1_0_1 : S40000x32.BroadcastsInDim S40000x32x1 (![0, 1] : Fin 2 → Fin S40000x32x1.rank)
  bcast_S40000x3_S40000x1x3_0_2 : S40000x3.BroadcastsInDim S40000x1x3 (![0, 2] : Fin 2 → Fin S40000x1x3.rank)
  bcast_S40000x1x3_S40000x32x3_0_1_2 : S40000x1x3.BroadcastsInDim S40000x32x3 (![0, 1, 2] : Fin 3 → Fin S40000x32x3.rank)
  bcast_S40000x32x3_S40000x32x1x3_0_1_3 : S40000x32x3.BroadcastsInDim S40000x32x1x3 (![0, 1, 3] : Fin 3 → Fin S40000x32x1x3.rank)
  bcast_S15x3_S1x1x15x3_2_3 : S15x3.BroadcastsInDim S1x1x15x3 (![2, 3] : Fin 2 → Fin S1x1x15x3.rank)
  bcast_S40000x32x1x3_S40000x32x15x3_0_1_2_3 : S40000x32x1x3.BroadcastsInDim S40000x32x15x3 (![0, 1, 2, 3] : Fin 4 → Fin S40000x32x15x3.rank)
  bcast_S1x1x15x3_S40000x32x15x3_0_1_2_3 : S1x1x15x3.BroadcastsInDim S40000x32x15x3 (![0, 1, 2, 3] : Fin 4 → Fin S40000x32x15x3.rank)
  reducesTo_S40000x32x15x3_S40000x32x15_d3 : S40000x32x15x3.ReducesTo [3] S40000x32x15
  h_S_ : 0 < S_.numel
  bcast_S_S40000x32x15 : S_.BroadcastsInDim S40000x32x15 (![] : Fin 0 → Fin S40000x32x15.rank)
  transposes_S40000x32x15_S40000x15x32_0_2_1 : S40000x32x15.Transposes [0, 2, 1] S40000x15x32
  slices_S40000x64_S1x64_0_0 : S40000x64.Slices ![0, 0] S1x64
  bcast_S_S1x64 : S_.BroadcastsInDim S1x64 (![] : Fin 0 → Fin S1x64.rank)
  concatenates_S40000x64_S1x64_S40001x64_d0 : Shape.Concatenates [S40000x64, S1x64] S40001x64 0
  transposes_S40000x15x64_S15x40000x64_1_0_2 : S40000x15x64.Transposes [1, 0, 2] S15x40000x64
  reducesTo_S15x40000x128_S40000x128_d0 : S15x40000x128.ReducesTo [0] S40000x128
  reducesTo_S40000x32x64_S40000x32_d2 : S40000x32x64.ReducesTo [2] S40000x32
  natLt_1_32 : 1 < 32
  reducesTo_S40000x32_S40000_d1 : S40000x32.ReducesTo [1] S40000
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  gather_S40001x3_S40000x32x1_S40000x32x3_2_0_n_n_0_2_13_wf : GatherDims.WF S40001x3 S40000x32x1 S40000x32x3 [2] [0] [] [0] [] 2 ![1, 3]
  gather_S40001x64_S40000x32x1_S40000x32x64_2_0_n_n_0_2_164_wf : GatherDims.WF S40001x64 S40000x32x1 S40000x32x64 [2] [0] [] [0] [] 2 ![1, 64]
  dot_S40000x15x32_S40000x32x64_S40000x15x64_2_1_1_2_0_0_wf : DotDims.WF S40000x15x32 S40000x32x64 S40000x15x64 [2] [1] [1] [2] [0] [0]
  dot_S15x40000x64_S15x64x128_S15x40000x128_2_1_1_2_0_0_wf : DotDims.WF S15x40000x64 S15x64x128 S15x40000x128 [2] [1] [1] [2] [0] [0]

variable [Facts₀]

def gather_S40001x3_S40000x32x1_S40000x32x3_2_0_n_n_0_2_13 : GatherDims S40001x3 S40000x32x1 S40000x32x3 where
  offsetDims := [2]
  collapsedSliceDims := [0]
  operandBatchingDims := []
  startIndicesBatchingDims := []
  startIndexMap := [0]
  indexVectorDim := 2
  sliceSizes := ![1, 3]
  wf := gather_S40001x3_S40000x32x1_S40000x32x3_2_0_n_n_0_2_13_wf
def gather_S40001x64_S40000x32x1_S40000x32x64_2_0_n_n_0_2_164 : GatherDims S40001x64 S40000x32x1 S40000x32x64 where
  offsetDims := [2]
  collapsedSliceDims := [0]
  operandBatchingDims := []
  startIndicesBatchingDims := []
  startIndexMap := [0]
  indexVectorDim := 2
  sliceSizes := ![1, 64]
  wf := gather_S40001x64_S40000x32x1_S40000x32x64_2_0_n_n_0_2_164_wf
def dot_S40000x15x32_S40000x32x64_S40000x15x64_2_1_1_2_0_0 : DotDims S40000x15x32 S40000x32x64 S40000x15x64 where
  lhsContracting := [2]
  rhsContracting := [1]
  lhsNonContracting := [1]
  rhsNonContracting := [2]
  lhsBatch := [0]
  rhsBatch := [0]
  wf := dot_S40000x15x32_S40000x32x64_S40000x15x64_2_1_1_2_0_0_wf
def dot_S15x40000x64_S15x64x128_S15x40000x128_2_1_1_2_0_0 : DotDims S15x40000x64 S15x64x128 S15x40000x128 where
  lhsContracting := [2]
  rhsContracting := [1]
  lhsNonContracting := [1]
  rhsNonContracting := [2]
  lhsBatch := [0]
  rhsBatch := [0]
  wf := dot_S15x40000x64_S15x64x128_S15x40000x128_2_1_1_2_0_0_wf

class Facts : Prop extends Facts₀ where

variable [Facts]
-- ==== Proof.Spec.lean ====
/-
  The kernel-point convolution of one query point, as one formula on the extended reals, and the laws that join the two
  programs' arrangements of it. Nothing here mentions a program.

  For a query point with 32 neighbours, neighbour k at offset nb k (3 coordinates) with features nx k (64 numbers),
  15 kernel points kp p (3 coordinates) and 15 matrices w p (64 × 128):
    influence p k   = max (1 − |kp p − nb k| · s, 0)                 (s the reciprocal of the extent, |·| the Euclidean norm)
    aggregate p d   = Σ_k influence p k · nx k d
    projected p o   = Σ_d aggregate p d · w p d o
    count           = max (number of k with Σ_d nx k d > 0, 1)
    output o        = (Σ_p projected p o) / count
  The output array G holds, in row n, the output of query point n.

  Laws: the square of a difference does not see the order of its terms, on every extended real (so |kp − nb| = |nb − kp|
  with no finiteness asked); a finite sum of coerced reals is the coerced sum; and the count taken as a float sum of 0/1
  flags clipped below at 1 is the count taken as a 32-bit integer sum clipped below at 1 and then converted (at most 32
  flags: the integer sum cannot wrap).
-/
import Idealize.ShloMosaic.Lib.ValueIdx
import Idealize.ShloMosaic.PureOps.Ideal
import Idealize.ShloMosaic.PureOps.Ideal.Laws
import Idealize.ShloMosaic.PureOps.Reduce

noncomputable section

namespace Cert.KPConv

open Idealize.ShloMosaic Idealize.ShloMosaic.ValueIdx

/-! ## One query point -/

/-- The reciprocal of the extent, exactly: the extent is the dyadic `13421773 / 2^28`. -/
def invExtent : EReal := ((268435456 / 13421773 : ℝ) : EReal)

/-- How much a neighbour at offset `nb` counts for a kernel point at `kp`: linear in their distance, clipped at zero. -/
def influence (kp nb : Fin 3 → EReal) : EReal :=
  max (1 - Ideal.sqrt (∑ c : Fin 3, (kp c - nb c) * (kp c - nb c)) * invExtent) 0

/-- The neighbours' features weighted by their influence on kernel point `p`, summed over the neighbours. -/
def aggregate (kp : Fin 15 → Fin 3 → EReal) (nb : Fin 32 → Fin 3 → EReal) (nx : Fin 32 → Fin 64 → EReal)
    (p : Fin 15) (d : Fin 64) : EReal :=
  ∑ k : Fin 32, influence (kp p) (nb k) * nx k d

/-- Kernel point `p`'s aggregate through its own matrix. -/
def projected (kp : Fin 15 → Fin 3 → EReal) (nb : Fin 32 → Fin 3 → EReal) (nx : Fin 32 → Fin 64 → EReal)
    (w : Fin 15 → Fin 64 → Fin 128 → EReal) (p : Fin 15) (o : Fin 128) : EReal :=
  ∑ d : Fin 64, aggregate kp nb nx p d * w p d o

/-- Whether neighbour `k` is counted: the sum of its features is positive. -/
def counted (nx : Fin 32 → Fin 64 → EReal) (k : Fin 32) : BitVec 1 :=
  Ideal.cmp .ogt (∑ d : Fin 64, nx k d) 0

/-- The number of counted neighbours, at least one. -/
def neighbourCount (nx : Fin 32 → Fin 64 → EReal) : EReal :=
  max (∑ k : Fin 32, ((((counted nx k).setWidth 32).toInt : ℝ) : EReal)) 1

/-- The query point's output feature `o`. -/
def rowOut (kp : Fin 15 → Fin 3 → EReal) (nb : Fin 32 → Fin 3 → EReal) (nx : Fin 32 → Fin 64 → EReal)
    (w : Fin 15 → Fin 64 → Fin 128 → EReal) (o : Fin 128) : EReal :=
  Ideal.div (∑ p : Fin 15, projected kp nb nx w p o) (neighbourCount nx)

/-! ## The whole array -/

/-- The output array: row `n` is query point `n`'s output, from row `n` of the neighbour offsets `nb` and features `nx`. -/
def G (nb : (⟨3, ![40000, 32, 3]⟩ : Shape).Idx → EReal) (nx : (⟨3, ![40000, 32, 64]⟩ : Shape).Idx → EReal)
    (w : (⟨3, ![15, 64, 128]⟩ : Shape).Idx → EReal) (kp : (⟨2, ![15, 3]⟩ : Shape).Idx → EReal) :
    (⟨2, ![40000, 128]⟩ : Shape).Idx → EReal :=
  fun i => rowOut (fun p c => kp (ix2 p c)) (fun k c => nb (ix3 (i 0) k c)) (fun k d => nx (ix3 (i 0) k d))
    (fun p d o => w (ix3 p d o)) (i 1)

/-! ## Laws -/

/-- The square of a difference does not see the order of its terms — on every extended real: where the difference is
    of two equal infinities both orders give the same junk, and elsewhere one is the other's negative. -/
theorem sq_sub_comm (a b : EReal) : (a - b) * (a - b) = (b - a) * (b - a) := by
  induction a with
  | bot =>
    induction b with
    | bot => rfl
    | coe y => simp
    | top => simp
  | coe x =>
    induction b with
    | bot => simp
    | coe y =>
      rw [← EReal.coe_sub, ← EReal.coe_sub, ← EReal.coe_mul, ← EReal.coe_mul]
      congr 1; ring
    | top => simp
  | top =>
    induction b with
    | bot => simp
    | coe y => simp
    | top => rfl

/-- A finite sum of reals, coerced, is the sum of the coerced terms. -/
theorem coe_sum {ι : Type} (s : Finset ι) (f : ι → ℝ) : (((∑ i ∈ s, f i : ℝ)) : EReal) = ∑ i ∈ s, (f i : EReal) := by
  classical
  induction s using Finset.induction_on with
  | empty => simp
  | insert a s ha ih => rw [Finset.sum_insert ha, Finset.sum_insert ha, EReal.coe_add, ih]

/-- A fold of 32-bit addition from zero is the sum of the terms' values, reduced to 32 bits. -/
theorem fold_addi_eq {ι : Type} (s : Finset ι) (f : ι → BitVec 32) :
    s.fold IntOp.addi 0#32 f = BitVec.ofNat 32 (∑ i ∈ s, (f i).toNat) := by
  classical
  induction s using Finset.induction_on with
  | empty => simp
  | insert a s ha ih =>
    rw [Finset.fold_insert ha, Finset.sum_insert ha, ih]
    show f a + BitVec.ofNat 32 _ = _
    apply BitVec.eq_of_toNat_eq
    simp [BitVec.toNat_add, BitVec.toNat_ofNat]

/-- THE COUNT, two ways: 32 one-bit flags widened, converted to reals and summed, clipped below at 1 — against the flags
    widened, summed as 32-bit integers, clipped below at 1 as integers and converted. Equal: the integer sum is at most
    32, so it does not wrap and its signed reading is the count. -/
theorem count_law (b : Fin 32 → BitVec 1) :
    max (∑ k : Fin 32, ((((b k).setWidth 32).toInt : ℝ) : EReal)) 1
      = (((IntOp.maxsi (Finset.univ.fold IntOp.addi 0#32 (fun k => (b k).setWidth 32)) 1#32).toInt : ℝ) : EReal) := by
  have hb : ∀ k, ((b k).setWidth 32).toNat ≤ 1 := fun k => by
    rw [BitVec.toNat_setWidth]; have := (b k).isLt; omega
  have hInt : ∀ k, ((b k).setWidth 32).toInt = (((b k).setWidth 32).toNat : ℤ) := fun k => by
    have := hb k
    rw [BitVec.toInt_eq_toNat_cond]; split <;> omega
  obtain ⟨n, hn⟩ : ∃ n : ℕ, n = ∑ k : Fin 32, ((b k).setWidth 32).toNat := ⟨_, rfl⟩
  have hn32 : n ≤ 32 := by
    rw [hn]
    calc ∑ k : Fin 32, ((b k).setWidth 32).toNat ≤ ∑ _k : Fin 32, 1 := Finset.sum_le_sum fun k _ => hb k
      _ = 32 := by simp
  have hL : (∑ k : Fin 32, ((((b k).setWidth 32).toInt : ℝ) : EReal)) = ((n : ℝ) : EReal) := by
    rw [← coe_sum, hn]
    congr 1
    push_cast
    exact Finset.sum_congr rfl fun k _ => by rw [hInt]; push_cast; rfl
  have hto : (BitVec.ofNat 32 n).toInt = (n : ℤ) := by
    rw [BitVec.toInt_eq_toNat_cond, BitVec.toNat_ofNat, Nat.mod_eq_of_lt (by omega)]
    split <;> omega
  have hone : (1#32 : BitVec 32).toInt = 1 := by decide
  rw [hL, fold_addi_eq, ← hn]
  unfold IntOp.maxsi
  by_cases h1 : 1 < n
  · have hs : (1#32 : BitVec 32).slt (BitVec.ofNat 32 n) = true := by
      rw [BitVec.slt, hone, hto]; exact decide_eq_true (by exact_mod_cast h1)
    rw [if_pos hs, hto, Int.cast_natCast]
    exact max_eq_left (by exact_mod_cast h1.le)
  · have hs : ¬ (1#32 : BitVec 32).slt (BitVec.ofNat 32 n) = true := by
      rw [BitVec.slt, hone, hto]
      intro h; exact h1 (by exact_mod_cast of_decide_eq_true h)
    rw [if_neg hs, hone]
    have hle : n ≤ 1 := by omega
    rw [Int.cast_one, EReal.coe_one]
    exact max_eq_right (by exact_mod_cast hle)

end Cert.KPConv

end
-- ==== Proof.Consts.lean ====
/-
  The float literals the two programs spell, as the extended reals their patterns denote. One module states them all,
  so that the pattern reader is unfolded once.

  • `1.0` denotes 1.
  • The reference's `0.05` is the f32 pattern 0x3D4CCCCD, which denotes 13421773 / 268435456 (not 1/20).
  • Dividing by that number is multiplying by its reciprocal 268435456 / 13421773, on every extended real.
-/
import Idealize.ShloMosaic.PureOps.Ideal
import Idealize.ShloMosaic.PureOps.Ideal.Laws

noncomputable section

namespace Cert.Consts

open Idealize.ShloMosaic

/-- The pattern of `1.0` denotes `1`. -/
theorem ofBits_one : Ideal.ofBits .f32 0x3F800000#32 = 1 := by
  simp [Ideal.ofBits, Ideal.ieee, -EReal.coe_mul]; norm_num

/-- The pattern the reference's `0.05` rounds to denotes the dyadic `13421773 / 2^28`. -/
theorem ofBits_extent : Ideal.ofBits .f32 0x3D4CCCCD#32 = ((13421773 / 268435456 : ℝ) : EReal) := by
  simp [Ideal.ofBits, Ideal.ieee, -EReal.coe_mul]; norm_num

/-- A quotient by the reference's extent is the product with the exact reciprocal of that dyadic, at the infinities too. -/
theorem div_extent (x : EReal) :
    Ideal.div x (Ideal.ofBits .f32 0x3D4CCCCD#32) = x * ((268435456 / 13421773 : ℝ) : EReal) := by
  rw [ofBits_extent, Ideal.div_coe (by norm_num : (13421773 / 268435456 : ℝ) ≠ 0)]
  congr 2
  norm_num

end Cert.Consts

end
-- ==== Proof.LibPairwiseLayout.lean ====
/-
  Layout operations of an all-pairs difference between the rows of a table [b, c] and the rows of a stack [a, k, c],
  taken as a rank-4 array [a, b, k, c], each read at an index given by coordinates; a float sum over the LAST axis of a
  rank-3 or rank-4 array read as a sum over that axis's coordinate; and a rank-3 array cut along its FIRST axis.
  General facts about shapes: nothing here mentions a program.

  • `shapeCast_bc_1b1c_apply`: a table [b, c] viewed as [1, b, 1, c] reads, at (0, p, 0, q), the table at (p, q).
  • `shapeCast_akc_a1kc_apply`: a stack [a, k, c] viewed as [a, 1, k, c] reads, at (r, 0, j, q), the stack at (r, j, q).
  • `broadcastTo_1b1c_abkc_apply`: [1, b, 1, c] broadcast to [a, b, k, c] reads, at (r, p, j, q), the operand at (0, p, 0, q).
  • `broadcastTo_a1kc_abkc_apply`: [a, 1, k, c] broadcast to [a, b, k, c] reads, at (r, p, j, q), the operand at (r, 0, j, q).
  • `lastSum4_zero_apply`: the sum of an [a, b, k, c] array along its last axis, from the zero pattern, reads at (r, p, j)
    the sum over q of the array at (r, p, j, q).
  • `lastSum3_zero_apply`: the sum of an [a, b, c] array along its last axis, from the zero pattern, reads at (r, p) the sum
    over q of the array at (r, p, q).
  • `slice3_axis0_apply`: an [n0, n1, n2] array cut along axis 0 from `o` reads, at (j, b, e), the source at (o + j, b, e).
-/
import Idealize.ShloMosaic.Lib.ValueLayout
import Idealize.ShloMosaic.PureOps.Ideal.Laws

noncomputable section

namespace Cert.Lib.PairwiseLayout

open Idealize.ShloMosaic Idealize.ShloMosaic.ValueIdx

variable {α : Type}

/-- A `[b, c]` table cast to `[1, b, 1, c]` reads, at `(0, p, 0, q)`, the table at `(p, q)`: both sit at row-major
    position `p * c + q`. -/
theorem shapeCast_bc_1b1c_apply {b c : ℕ} (x : (⟨2, ![b, c]⟩ : Shape).Idx → α)
    (h : (⟨2, ![b, c]⟩ : Shape).ShapeCasts ⟨4, ![1, b, 1, c]⟩) (p : Fin b) (q : Fin c) :
    shapeCast ⟨4, ![1, b, 1, c]⟩ x h (ix4 (0 : Fin 1) p (0 : Fin 1) q) = x (ix2 p q) :=
  shapeCast_apply x h _ _ (by
    rw [Shape.rowMajor_val_four, Shape.rowMajor_val_two]
    show p.val * c + q.val = ((0 * b + p.val) * 1 + 0) * c + q.val
    rw [Nat.zero_mul, Nat.zero_add, Nat.mul_one, Nat.add_zero])

/-- An `[a, k, c]` stack cast to `[a, 1, k, c]` reads, at `(r, 0, j, q)`, the stack at `(r, j, q)`: both sit at
    row-major position `(r * k + j) * c + q`. -/
theorem shapeCast_akc_a1kc_apply {a k c : ℕ} (x : (⟨3, ![a, k, c]⟩ : Shape).Idx → α)
    (h : (⟨3, ![a, k, c]⟩ : Shape).ShapeCasts ⟨4, ![a, 1, k, c]⟩) (r : Fin a) (j : Fin k) (q : Fin c) :
    shapeCast ⟨4, ![a, 1, k, c]⟩ x h (ix4 r (0 : Fin 1) j q) = x (ix3 r j q) :=
  shapeCast_apply x h _ _ (by
    rw [Shape.rowMajor_val_four, Shape.rowMajor_val_three]
    show (r.val * k + j.val) * c + q.val = ((r.val * 1 + 0) * k + j.val) * c + q.val
    rw [Nat.mul_one, Nat.add_zero])

/-- `[1, b, 1, c]` broadcast to `[a, b, k, c]` reads, at `(r, p, j, q)`, the operand at `(0, p, 0, q)`: the same table
    for every `r` and `j`. -/
theorem broadcastTo_1b1c_abkc_apply {a b k c : ℕ} (v : (⟨4, ![1, b, 1, c]⟩ : Shape).Idx → α)
    (h : (⟨4, ![1, b, 1, c]⟩ : Shape).Broadcasts ⟨4, ![a, b, k, c]⟩) (r : Fin a) (p : Fin b) (j : Fin k) (q : Fin c) :
    broadcastTo ⟨4, ![a, b, k, c]⟩ v h (ix4 r p j q) = v (ix4 (0 : Fin 1) p (0 : Fin 1) q) := by
  refine broadcastTo_apply v h (ix4 r p j q) (ix4 (0 : Fin 1) p (0 : Fin 1) q) fun ax => ?_
  match ax with
  | ⟨0, _⟩ =>
    show (0 : ℕ) = if (1 : ℕ) = 1 then 0 else r.val
    rw [if_pos rfl]
  | ⟨1, _⟩ =>
    show p.val = if b = 1 then 0 else p.val
    split
    · have := p.isLt; omega
    · rfl
  | ⟨2, _⟩ =>
    show (0 : ℕ) = if (1 : ℕ) = 1 then 0 else j.val
    rw [if_pos rfl]
  | ⟨3, _⟩ =>
    show q.val = if c = 1 then 0 else q.val
    split
    · have := q.isLt; omega
    · rfl

/-- `[a, 1, k, c]` broadcast to `[a, b, k, c]` reads, at `(r, p, j, q)`, the operand at `(r, 0, j, q)`: the same stack
    for every `p`. -/
theorem broadcastTo_a1kc_abkc_apply {a b k c : ℕ} (v : (⟨4, ![a, 1, k, c]⟩ : Shape).Idx → α)
    (h : (⟨4, ![a, 1, k, c]⟩ : Shape).Broadcasts ⟨4, ![a, b, k, c]⟩) (r : Fin a) (p : Fin b) (j : Fin k) (q : Fin c) :
    broadcastTo ⟨4, ![a, b, k, c]⟩ v h (ix4 r p j q) = v (ix4 r (0 : Fin 1) j q) := by
  refine broadcastTo_apply v h (ix4 r p j q) (ix4 r (0 : Fin 1) j q) fun ax => ?_
  match ax with
  | ⟨0, _⟩ =>
    show r.val = if a = 1 then 0 else r.val
    split
    · have := r.isLt; omega
    · rfl
  | ⟨1, _⟩ =>
    show (0 : ℕ) = if (1 : ℕ) = 1 then 0 else p.val
    rw [if_pos rfl]
  | ⟨2, _⟩ =>
    show j.val = if k = 1 then 0 else j.val
    split
    · have := j.isLt; omega
    · rfl
  | ⟨3, _⟩ =>
    show q.val = if c = 1 then 0 else q.val
    split
    · have := q.isLt; omega
    · rfl

/-- The sum of an `[a, b, k, c]` array along its last axis from a zero accumulator reads, at `(r, p, j)`, the sum over `q`
    of the array at `(r, p, j, q)` (the accumulator's neutrality stated as the equation of the two zero patterns, the form
    in which a printed body carries it). -/
theorem lastSum4_zero_apply {a b k c : ℕ} (src : FVec Ideal ⟨4, ![a, b, k, c]⟩ .f32)
    (hR : (⟨4, ![a, b, k, c]⟩ : Shape).Reduces [3] ⟨3, ![a, b, k]⟩)
    (hφ : FKind.Formats .f32) (hacc : (0x00000000#32 : BitVec 32) = 0x00000000#32) (r : Fin a) (p : Fin b) (j : Fin k) :
    multiReduction (F := Ideal) .add [3] ⟨3, ![a, b, k]⟩ src 0x00000000#32 hR hφ hacc (ix3 r p j)
      = ∑ q : Fin c, src (ix4 r p j q) :=
  (Ideal.multiReduction_add_single src _ hR hφ hacc (ix3 r p j)).trans
    (Finset.sum_congr rfl fun q _ => congrArg src (funext fun d => by
      match d with | ⟨0, _⟩ => rfl | ⟨1, _⟩ => rfl | ⟨2, _⟩ => rfl | ⟨3, _⟩ => rfl))

/-- The sum of an `[a, b, c]` array along its last axis from a zero accumulator reads, at `(r, p)`, the sum over `q` of the
    array at `(r, p, q)`. -/
theorem lastSum3_zero_apply {a b c : ℕ} (src : FVec Ideal ⟨3, ![a, b, c]⟩ .f32)
    (hR : (⟨3, ![a, b, c]⟩ : Shape).Reduces [2] ⟨2, ![a, b]⟩)
    (hφ : FKind.Formats .f32) (hacc : (0x00000000#32 : BitVec 32) = 0x00000000#32) (r : Fin a) (p : Fin b) :
    multiReduction (F := Ideal) .add [2] ⟨2, ![a, b]⟩ src 0x00000000#32 hR hφ hacc (ix2 r p)
      = ∑ q : Fin c, src (ix3 r p q) :=
  (Ideal.multiReduction_add_single src _ hR hφ hacc (ix2 r p)).trans
    (Finset.sum_congr rfl fun q _ => congrArg src (funext fun d => by
      match d with | ⟨0, _⟩ => rfl | ⟨1, _⟩ => rfl | ⟨2, _⟩ => rfl))

/-- A rank-3 array cut along axis 0 from `o` reads, at `(j, b, e)`, the source at `(k, b, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

end Cert.Lib.PairwiseLayout

end
-- ==== Proof.LibMidUnit.lean ====
/-
  A unit axis in the middle of a rank-3 array dropped by a shape cast, read at an index written by its coordinates. A
  general fact about the shapes [a, 1, b] and [a, b]: nothing here mentions a program.
-/
import Idealize.ShloMosaic.Lib.ValueLayout

noncomputable section

namespace Cert.Lib.MidUnit

open Idealize.ShloMosaic Idealize.ShloMosaic.ValueIdx

variable {α : Type}

/-- An `[a, 1, b]` array cast to `[a, b]` reads, at `(i, j)`, the operand at `(i, 0, j)`: both sit at row-major
    position `i * b + j`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.MidUnit

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.LibRowSumZero.lean ====
/-
  A float sum of an [a, b] array along its second axis, started from the zero pattern, read at a row — with the
  accumulator's neutrality stated as the equation of the two zero patterns, the form in which a printed kernel body carries
  it (a lemma whose hypothesis is stated through the additive neutral element does not rewrite such a term) —, and a
  vector's reciprocal square root read at an index. General facts: nothing here mentions a program.

  • `rowSum_zero_apply`: at row `p` the sum is the sum over `k` of the array at `(p, k)`.
  • `rsqrt_apply`: the reciprocal square root of a vector, at an index, is that of its entry.
-/
import Idealize.ShloMosaic.Lib.ValueIdx
import Idealize.ShloMosaic.PureOps.Ideal.Laws

noncomputable section

namespace Cert.RowSumZero

open Idealize.ShloMosaic Idealize.ShloMosaic.ValueIdx

/-- The sum of an `[a, b]` array along its second axis from a zero accumulator reads, at `p`, the sum over `k` of the
    array at `(p, k)` (the accumulator's neutrality stated as the equation of the two zero patterns). -/
theorem rowSum_zero_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- A vector's reciprocal square root, entry by entry. -/
theorem rsqrt_apply {s : Shape} {φ : FTy} (v : FVec Ideal s φ) (i : s.Idx) : rsqrt v i = Ideal.rsqrt (v i) := rfl

end Cert.RowSumZero

end
-- ==== Proof.KernelRow.lean ====
/-
  One row of the kernel's output block, read at coordinates.

  The body keeps, for a block of 800 query points, the aggregate A[r, p, d] = Σ_k influence(r, p, k) · nx[r, k, d] (one
  batched contraction over the 32 neighbours), then adds up, kernel point by kernel point from zero, the products of
  A[·, p, ·] with the p-th matrix (fifteen plain contractions over the 64 features, each on a slice of A and a slice of the
  matrices), and divides by the count of neighbours whose features sum to a positive number, clipped below at one.
  Read at row r and column o this is the query point's output of the specification, for the row's own data.
-/
import proofs.«174966_j71571335021213_1_alg».proof.Proof.Gen.KernelIdeal.Skeleton
import proofs.«174966_j71571335021213_1_alg».proof.Proof.Spec
import proofs.«174966_j71571335021213_1_alg».proof.Proof.Consts
import proofs.«174966_j71571335021213_1_alg».proof.Proof.LibPairwiseLayout
import proofs.«174966_j71571335021213_1_alg».proof.Proof.LibMidUnit
import proofs.«174966_j71571335021213_1_alg».proof.Proof.LibKeepdims
import proofs.«174966_j71571335021213_1_alg».proof.Proof.LibRowSumZero
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KPConv.KernelRow

open Cert.KernelIdeal Cert.KernelIdeal.Gen Cert.KernelIdeal.Facts₀ Cert.KPConv
open Idealize.ShloMosaic Idealize.ShloMosaic.ValueIdx
open Cert.Lib.PairwiseLayout Cert.Lib.MidUnit Cert.Keepdims Cert.RowSumZero

/-! ## The named reciprocal -/

/-- The kernel's folded reciprocal of the extent denotes, by the certificate's table, the exact reciprocal of the dyadic
    the reference divides by. -/
theorem named_invExtent :
    Named.named (F := Ideal) Cert.KernelIdeal.κ "inv_kp_extent" (φ := .f32) 0x41A00000#32 = invExtent :=
  IdealRules.named_const.ideal_named_scalar _ _ _ _ rfl

/-! ## The two contractions at coordinates -/

theorem agg_l0 (i : S800x15x64.Idx) (q : dot_S800x15x32_S800x32x64_S800x15x64_2_1_1_2_0_0.contr.Idx) : (dot_S800x15x32_S800x32x64_S800x15x64_2_1_1_2_0_0.lhsIdx i q 0).val = (i 0).val := by
  unfold DotDims.lhsIdx
  rw [dif_pos (show (0 : Fin S800x15x32.rank) ∈ dot_S800x15x32_S800x32x64_S800x15x64_2_1_1_2_0_0.lhsBatch by decide)]
  rfl
theorem agg_l1 (i : S800x15x64.Idx) (q : dot_S800x15x32_S800x32x64_S800x15x64_2_1_1_2_0_0.contr.Idx) : (dot_S800x15x32_S800x32x64_S800x15x64_2_1_1_2_0_0.lhsIdx i q 1).val = (i 1).val := by
  unfold DotDims.lhsIdx
  rw [dif_neg (show ¬(1 : Fin S800x15x32.rank) ∈ dot_S800x15x32_S800x32x64_S800x15x64_2_1_1_2_0_0.lhsBatch by decide), dif_pos (show (1 : Fin S800x15x32.rank) ∈ dot_S800x15x32_S800x32x64_S800x15x64_2_1_1_2_0_0.lhsNonContracting by decide)]
  rfl
theorem agg_l2 (i : S800x15x64.Idx) (q : dot_S800x15x32_S800x32x64_S800x15x64_2_1_1_2_0_0.contr.Idx) : (dot_S800x15x32_S800x32x64_S800x15x64_2_1_1_2_0_0.lhsIdx i q 2).val = (q ⟨0, by decide⟩).val :=
  dot_S800x15x32_S800x32x64_S800x15x64_2_1_1_2_0_0.lhsIdx_val_of_single rfl i q
theorem agg_r0 (i : S800x15x64.Idx) (q : dot_S800x15x32_S800x32x64_S800x15x64_2_1_1_2_0_0.contr.Idx) : (dot_S800x15x32_S800x32x64_S800x15x64_2_1_1_2_0_0.rhsIdx i q 0).val = (i 0).val := by
  unfold DotDims.rhsIdx
  rw [dif_pos (show (0 : Fin S800x32x64.rank) ∈ dot_S800x15x32_S800x32x64_S800x15x64_2_1_1_2_0_0.rhsBatch by decide)]
  rfl
theorem agg_r1 (i : S800x15x64.Idx) (q : dot_S800x15x32_S800x32x64_S800x15x64_2_1_1_2_0_0.contr.Idx) : (dot_S800x15x32_S800x32x64_S800x15x64_2_1_1_2_0_0.rhsIdx i q 1).val = (q ⟨0, by decide⟩).val :=
  dot_S800x15x32_S800x32x64_S800x15x64_2_1_1_2_0_0.rhsIdx_val_of_single rfl i q
theorem agg_r2 (i : S800x15x64.Idx) (q : dot_S800x15x32_S800x32x64_S800x15x64_2_1_1_2_0_0.contr.Idx) : (dot_S800x15x32_S800x32x64_S800x15x64_2_1_1_2_0_0.rhsIdx i q 2).val = (i 2).val := by
  unfold DotDims.rhsIdx
  rw [dif_neg (show ¬(2 : Fin S800x32x64.rank) ∈ dot_S800x15x32_S800x32x64_S800x15x64_2_1_1_2_0_0.rhsBatch by decide), dif_pos (show (2 : Fin S800x32x64.rank) ∈ dot_S800x15x32_S800x32x64_S800x15x64_2_1_1_2_0_0.rhsNonContracting by decide)]
  rfl

/-- The batched contraction over the neighbours, into a zero accumulator: at `(r, p, d)` the sum over `k` of the left
    operand at `(r, p, k)` times the right at `(r, k, d)`. -/
theorem agg_apply (l : FVec Ideal S800x15x32 .f32) (x : FVec Ideal S800x32x64 .f32) (r : Fin 800) (p : Fin 15) (d : Fin 64) :
    matmul (F := Ideal) dot_S800x15x32_S800x32x64_S800x15x64_2_1_1_2_0_0 none l x (constant S800x15x64 .f32 0x00000000#32) (ix3 r p d)
      = ∑ k : Fin 32, l (ix3 r p k) * x (ix3 r k d) := by
  simp only [matmul]
  rw [Ideal.matmul_constant_zero_apply, ← Equiv.sum_comp (contrEquiv1 dot_S800x15x32_S800x32x64_S800x15x64_2_1_1_2_0_0 32 rfl rfl).symm]
  refine Finset.sum_congr rfl fun k _ => ?_
  have hk := contrEquiv1_symm_val dot_S800x15x32_S800x32x64_S800x15x64_2_1_1_2_0_0 32 rfl rfl k
  have el : dot_S800x15x32_S800x32x64_S800x15x64_2_1_1_2_0_0.lhsIdx (ix3 r p d) ((contrEquiv1 dot_S800x15x32_S800x32x64_S800x15x64_2_1_1_2_0_0 32 rfl rfl).symm k) = ix3 r p k := funext fun a => Fin.ext (by
    match a with
    | ⟨0, _⟩ => exact agg_l0 _ _
    | ⟨1, _⟩ => exact agg_l1 _ _
    | ⟨2, _⟩ => exact (agg_l2 _ _).trans hk)
  have er : dot_S800x15x32_S800x32x64_S800x15x64_2_1_1_2_0_0.rhsIdx (ix3 r p d) ((contrEquiv1 dot_S800x15x32_S800x32x64_S800x15x64_2_1_1_2_0_0 32 rfl rfl).symm k) = ix3 r k d := funext fun a => Fin.ext (by
    match a with
    | ⟨0, _⟩ => exact agg_r0 _ _
    | ⟨1, _⟩ => exact (agg_r1 _ _).trans hk
    | ⟨2, _⟩ => exact agg_r2 _ _)
  rw [el, er]

theorem prj_l0 (i : S800x128.Idx) (q : dot_S800x64_S64x128_S800x128_1_0_0_1_n_n.contr.Idx) : (dot_S800x64_S64x128_S800x128_1_0_0_1_n_n.lhsIdx i q 0).val = (i 0).val := by
  unfold DotDims.lhsIdx
  rw [dif_neg (show ¬(0 : Fin S800x64.rank) ∈ dot_S800x64_S64x128_S800x128_1_0_0_1_n_n.lhsBatch by decide), dif_pos (show (0 : Fin S800x64.rank) ∈ dot_S800x64_S64x128_S800x128_1_0_0_1_n_n.lhsNonContracting by decide)]
  rfl
theorem prj_l1 (i : S800x128.Idx) (q : dot_S800x64_S64x128_S800x128_1_0_0_1_n_n.contr.Idx) : (dot_S800x64_S64x128_S800x128_1_0_0_1_n_n.lhsIdx i q 1).val = (q ⟨0, by decide⟩).val :=
  dot_S800x64_S64x128_S800x128_1_0_0_1_n_n.lhsIdx_val_of_single rfl i q
theorem prj_r0 (i : S800x128.Idx) (q : dot_S800x64_S64x128_S800x128_1_0_0_1_n_n.contr.Idx) : (dot_S800x64_S64x128_S800x128_1_0_0_1_n_n.rhsIdx i q 0).val = (q ⟨0, by decide⟩).val :=
  dot_S800x64_S64x128_S800x128_1_0_0_1_n_n.rhsIdx_val_of_single rfl i q
theorem prj_r1 (i : S800x128.Idx) (q : dot_S800x64_S64x128_S800x128_1_0_0_1_n_n.contr.Idx) : (dot_S800x64_S64x128_S800x128_1_0_0_1_n_n.rhsIdx i q 1).val = (i 1).val := by
  unfold DotDims.rhsIdx
  rw [dif_neg (show ¬(1 : Fin S64x128.rank) ∈ dot_S800x64_S64x128_S800x128_1_0_0_1_n_n.rhsBatch by decide), dif_pos (show (1 : Fin S64x128.rank) ∈ dot_S800x64_S64x128_S800x128_1_0_0_1_n_n.rhsNonContracting by decide)]
  rfl

/-- The plain contraction over the features, into a zero accumulator: at `(r, o)` the sum over `d` of the left operand
    at `(r, d)` times the right at `(d, o)`. -/
theorem prj_apply {φ₁ φ₂ : FTy} (l : FVec Ideal S800x64 φ₁) (x : FVec Ideal S64x128 φ₂) (r : Fin 800) (o : Fin 128) :
    matmul (F := Ideal) dot_S800x64_S64x128_S800x128_1_0_0_1_n_n none l x (constant S800x128 .f32 0x00000000#32) (ix2 r o)
      = ∑ d : Fin 64, l (ix2 r d) * x (ix2 d o) := by
  simp only [matmul]
  rw [Ideal.matmul_constant_zero_apply, ← Equiv.sum_comp (contrEquiv1 dot_S800x64_S64x128_S800x128_1_0_0_1_n_n 64 rfl rfl).symm]
  refine Finset.sum_congr rfl fun k _ => ?_
  have hk := contrEquiv1_symm_val dot_S800x64_S64x128_S800x128_1_0_0_1_n_n 64 rfl rfl k
  have el : dot_S800x64_S64x128_S800x128_1_0_0_1_n_n.lhsIdx (ix2 r o) ((contrEquiv1 dot_S800x64_S64x128_S800x128_1_0_0_1_n_n 64 rfl rfl).symm k) = ix2 r k := funext fun a => Fin.ext (by
    match a with
    | ⟨0, _⟩ => exact prj_l0 _ _
    | ⟨1, _⟩ => exact (prj_l1 _ _).trans hk)
  have er : dot_S800x64_S64x128_S800x128_1_0_0_1_n_n.rhsIdx (ix2 r o) ((contrEquiv1 dot_S800x64_S64x128_S800x128_1_0_0_1_n_n 64 rfl rfl).symm k) = ix2 k o := funext fun a => Fin.ext (by
    match a with
    | ⟨0, _⟩ => exact (prj_r0 _ _).trans hk
    | ⟨1, _⟩ => exact prj_r1 _ _)
  rw [el, er]

/-- KERNEL POINT `p`'s TERM: the `p`-th slice of the aggregate `A` (its middle axis dropped) through the `p`-th matrix
    of `W` (its leading axis dropped), at `(r, o)`: the sum over `d` of `A (r, p, d) · W (p, d, o)`. -/
theorem term_apply (A : FVec Ideal S800x15x64 .bf16) (W : FVec Ideal S15x64x128 .bf16) (p : ℕ)
    (hs : S800x15x64.Slices ![0, p, 0] S800x1x64) (hs' : S15x64x128.Slices ![p, 0, 0] S1x64x128)
    (hc : S800x1x64.ShapeCasts S800x64) (hc' : S1x64x128.ShapeCasts S64x128)
    (hp : p < 15) (r : Fin 800) (o : Fin 128) :
    matmul (F := Ideal) dot_S800x64_S64x128_S800x128_1_0_0_1_n_n none
        (shapeCast S800x64 (extractStridedSlice S800x1x64 ![0, p, 0] A hs) hc)
        (shapeCast S64x128 (extractStridedSlice S1x64x128 ![p, 0, 0] W hs') hc')
        (constant S800x128 .f32 0x00000000#32) (ix2 r o)
      = ∑ d : Fin 64, A (ix3 r ⟨p, hp⟩ d) * W (ix3 ⟨p, hp⟩ d o) := by
  rw [prj_apply]
  refine Finset.sum_congr rfl fun d _ => ?_
  rw [shapeCast_a1b_ab_apply, slice3_axis1_apply p A hs r 0 d ⟨p, hp⟩ (by simp),
    shapeCast_1ab_ab_apply, slice3_axis0_apply p W hs' 0 d o ⟨p, hp⟩ (by simp)]

/-! ## The aggregate -/

/-- THE AGGREGATE the body keeps, at `(r, p, d)`: the sum over the neighbours `k` of the influence of neighbour `k` on
    kernel point `p` — from the block's row `r` of neighbour offsets and the kernel points, the folded reciprocal read as
    the named value — times the neighbour's feature `d`. (The change of float format is the identity.) -/
theorem aggregate_apply (v0 : Vec Ideal S800x32x3 .f32) (v2 : Vec Ideal S15x3 .f32) (v17 : Vec Ideal S800x32x64 .f32)
    (r : Fin 800) (p : Fin 15) (d : Fin 64) :
    k0_pay3 (F := Ideal) v0 v2 v17 (ix3 r p d)
      = aggregate (fun p c => v2 (ix2 p c)) (fun k c => v0 (ix3 r k c)) (fun k d => v17 (ix3 r k d)) p d := by
  unfold k0_pay3 k0_pay2 aggregate
  dsimp only
  rw [truncf_apply, agg_apply]
  refine Finset.sum_congr rfl fun k _ => ?_
  simp only [shapeCast_self]
  refine congrArg (· * v17 (ix3 r k d)) ?_
  rw [maximumf_apply, subf_apply, mulf_apply, broadcast_apply, broadcast_apply, broadcast_apply]
  show max (Ideal.ofBits .f32 0x3F800000#32 - Ideal.sqrt (multiReduction (F := Ideal) .add [3] S800x15x32 _ 0x00000000#32 _ _ _ (ix3 r p k))
      * Named.named (F := Ideal) κ "inv_kp_extent" (φ := .f32) 0x41A00000#32) (Ideal.ofBits .f32 0x00000000#32) = _
  rw [lastSum4_zero_apply, Consts.ofBits_one, Ideal.ofBits_zero_f32, named_invExtent]
  unfold influence
  refine congrArg (fun s => max (1 - Ideal.sqrt s * invExtent) 0) (Finset.sum_congr rfl fun c _ => ?_)
  rw [mulf_apply, subf_apply, broadcastTo_1b1c_abkc_apply, shapeCast_bc_1b1c_apply, broadcastTo_a1kc_abkc_apply,
    shapeCast_akc_a1kc_apply]

/-! ## The fifteen terms, the count, the quotient -/

/-- Kernel point `p`'s term at `(r, o)` as a function of the NUMBER `p` (zero past the fifteen kernel points): the form in
    which a sum over `p` unrolls into the body's chain of additions. -/
def term (A : FVec Ideal S800x15x64 .bf16) (W : FVec Ideal S15x64x128 .bf16) (r : Fin 800) (o : Fin 128) (p : ℕ) : EReal :=
  if h : p < 15 then ∑ d : Fin 64, A (ix3 r ⟨p, h⟩ d) * W (ix3 ⟨p, h⟩ d o) else 0

/-- A slice of the aggregate through a slice of the matrices is that term (a slice that exists lies inside the fifteen). -/
theorem term_eq (A : FVec Ideal S800x15x64 .bf16) (W : FVec Ideal S15x64x128 .bf16) (p : ℕ)
    (hs : S800x15x64.Slices ![0, p, 0] S800x1x64) (hs' : S15x64x128.Slices ![p, 0, 0] S1x64x128)
    (hc : S800x1x64.ShapeCasts S800x64) (hc' : S1x64x128.ShapeCasts S64x128) (r : Fin 800) (o : Fin 128) :
    matmul (F := Ideal) dot_S800x64_S64x128_S800x128_1_0_0_1_n_n none
        (shapeCast S800x64 (extractStridedSlice S800x1x64 ![0, p, 0] A hs) hc)
        (shapeCast S64x128 (extractStridedSlice S1x64x128 ![p, 0, 0] W hs') hc')
        (constant S800x128 .f32 0x00000000#32) (ix2 r o)
      = term A W r o p := by
  have hp : p < 15 := by
    obtain ⟨_, h⟩ := hs
    have h1 : p + 1 ≤ 15 := h 1
    omega
  rw [term, dif_pos hp]
  exact term_apply A W p hs hs' hc hc' hp r o

/-- THE ROW: the body's stored value at `(r, o)` — the aggregate's fifteen slices through the fifteen matrices, added up
    from zero, over the clipped count of the neighbours whose features sum to a positive number — is the query point's
    output of the specification, for row `r` of the block's neighbour offsets `x0` and features `x1`, the matrices `x2` and the
    kernel points `x3`. -/
theorem payload_apply (x0 : Vec Ideal S800x32x3 .f32) (x1 : Vec Ideal S800x32x64 .f32) (x2 : Vec Ideal S15x64x128 .bf16)
    (x3 : Vec Ideal S15x3 .f32) (r : Fin 800) (o : Fin 128) :
    k0_pay1 (F := Ideal) (k0_pay2 x1) (k0_pay3 x0 x3 x1) (k0_pay4 x2)
        (k0_pay8 (k0_pay3 x0 x3 x1) (k0_pay4 x2) (k0_pay5 x0 x3 x1 x2) (k0_pay6 x0 x3 x1) (k0_pay7 x2))
        (k0_pay9 (k0_pay3 x0 x3 x1)) (ix2 r o)
      = rowOut (fun p c => x3 (ix2 p c)) (fun k c => x0 (ix3 r k c)) (fun k d => x1 (ix3 r k d))
          (fun p d o => x2 (ix3 p d o)) o := by
  have hA := fun p d => aggregate_apply x0 x3 x1 r p d
  unfold k0_pay1 k0_pay8 k0_pay5 k0_pay6 k0_pay7 k0_pay9 k0_pay4 k0_pay2
  dsimp only
  simp only [shapeCast_self]
  generalize k0_pay3 (F := Ideal) x0 x3 x1 = A at hA ⊢
  rw [divf_apply]
  unfold rowOut
  refine congrArg₂ Ideal.div ?_ ?_
  · -- the fifteen terms added up from zero are the sum over the kernel points
    have hsum : (∑ p : Fin 15, projected (fun p c => x3 (ix2 p c)) (fun k c => x0 (ix3 r k c)) (fun k d => x1 (ix3 r k d))
        (fun p d o => x2 (ix3 p d o)) p o) = ∑ i ∈ Finset.range 15, term A x2 r o i := by
      rw [← Fin.sum_univ_eq_sum_range]
      refine Finset.sum_congr rfl fun p _ => ?_
      rw [term, dif_pos p.isLt]
      unfold projected
      exact Finset.sum_congr rfl fun d _ => by rw [← hA]
    rw [hsum]
    simp only [addf_apply, broadcast_apply, term_eq, Ideal.ofBits_def, Ideal.ofBits_zero_f32, Finset.sum_range_succ,
      Finset.sum_range_zero]
  · -- the clipped count
    rw [broadcastTo_a1_ab_apply, shapeCast_a_a1_apply, maximumf_apply, broadcast_apply, rowSum_zero_apply]
    unfold neighbourCount counted
    show max (∑ k : Fin 32, _) (Ideal.ofBits .f32 0x3F800000#32) = _
    rw [Consts.ofBits_one]
    refine congrArg (max · 1) (Finset.sum_congr rfl fun k _ => ?_)
    rw [sitofp_apply, extui_apply, cmpf_apply, lastSum3_zero_apply, broadcast_apply]
    show ((((Ideal.cmp .ogt (∑ q : Fin 64, x1 (ix3 r k q)) (Ideal.ofBits .f32 0x00000000#32)).setWidth 32).toInt : ℝ) : EReal) = _
    rw [Ideal.ofBits_zero_f32]

end Cert.KPConv.KernelRow

end
-- ==== Proof.KernelValue.lean ====
/-
  From blocks to the array: the kernel's result array is the specification's `G` of the arrays its windows stage.

  The grid has 50 points; point t stages rows [800 t, 800 t + 800) of the neighbour offsets and of the neighbour features,
  the whole matrices and the whole kernel points, and writes back rows [800 t, 800 t + 800) of the result. Row r of what
  point t writes back is the query point's output for row r of the staged blocks (the body's row), that is for row
  800 t + r of the arrays: block t of `G`. The fifty blocks tile the 40000 rows, so the array ends holding `G`.
-/
import proofs.«174966_j71571335021213_1_alg».proof.Proof.Gen.KernelIdeal.Value
import proofs.«174966_j71571335021213_1_alg».proof.Proof.KernelRow
import Idealize.ShloMosaic.Lib.Pipeline.Value

set_option maxRecDepth 16384

noncomputable section

namespace Cert.KPConv.KernelValue

open Cert.KernelIdeal Cert.KernelIdeal.Gen Cert.KPConv Cert.KPConv.KernelRow
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem off2 : (![0, 0] : Fin 2 → Nat) = fun _ => 0 := funext fun a => by fin_cases a <;> rfl
theorem off3 : (![0, 0, 0] : Fin 3 → Nat) = fun _ => 0 := funext fun a => by fin_cases a <;> rfl

/-- The printed index maps, decided over the 50 grid points: the two row-blocked inputs move with the result's rows, the
    matrices and the kernel points stay, and nothing moves along the other axes. -/
theorem index_facts : ∀ t : Fin cfg0.N,
    win0_0.index t (0 : Fin 3) = win0_4.index t (0 : Fin 2) ∧ win0_0.index t (1 : Fin 3) = 0 ∧ win0_0.index t (2 : Fin 3) = 0
    ∧ win0_1.index t (0 : Fin 3) = win0_4.index t (0 : Fin 2) ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (1 : Fin 2) = 0 ∧ win0_4.index t (0 : Fin 2) ≤ 49 :=
  (by decide +kernel : ∀ t : Fin grid0.N, _)

/-- Every block of rows is some point's. -/
theorem index_onto : ∀ q : Fin 50, ∃ t : Fin cfg0.N, win0_4.index t = ![q.val, 0] :=
  (by decide +kernel : ∀ q : Fin 50, ∃ t : Fin grid0.N, win0_4.index t = ![q.val, 0])

/-- WHAT POINT `t` WRITES BACK is block `t` of `G` of the arrays the windows stage, as the region finds them. -/
theorem flushed_eq (dv : Dev nD) (t : Fin cfg0.N) :
    (dats m 0 dv).flushed 4 t = ((cfg0.win 4).blk t).view.read (Elt Ideal)
      (G (V m dv main_v15) (V m dv main_v22) (V m dv main_v23) (V m dv main_arg5)) := by
  rw [Cert.KernelIdeal.Value.flushed4]
  unfold out0_4
  rw [View.canon_unit_zero off2]
  simp only [View.ld_unit_zero (S := S800x32x3) off3, View.ld_unit_zero (S := S800x32x64) off3,
    View.ld_unit_zero (S := S15x64x128) off3, View.ld_unit_zero (S := S15x3) off2]
  obtain ⟨a0, a1, a2, b0, b1, b2, w0, w1, w2, k0, k1, o1, o0⟩ := index_facts t
  refine funext fun (j : S800x128.Idx) => ?_
  obtain ⟨r, o, rfl⟩ : ∃ (r : Fin 800) (o : Fin 128), j = ix2 r o := ⟨j 0, j 1, eq_ix2 j⟩
  -- the body's row, for the staged blocks
  refine (payload_apply (iblk m dv 0 t) (iblk m dv 1 t) (iblk m dv 2 t) (iblk m dv 3 t) r o).trans ?_
  rw [View.read_apply]
  unfold G
  -- the array index the block index (r, o) sits at: row 800 t + r, column o
  generalize hi : ((View.whole main_v24).slice ((win0 4).rect t)).emb (ix2 r o) = i
  have hi0 : (i 0).val = win0_4.index t (0 : Fin 2) * 800 + 1 * r.val := by rw [← hi]; rfl
  have hi1 : (i 1).val = win0_4.index t (1 : Fin 2) * 128 + 1 * o.val := by rw [← hi]; rfl
  -- each staged block, read where the output's rows say
  have hnb : (fun (k : Fin 32) (c : Fin 3) => iblk m dv 0 t (ix3 r k c)) = fun k c => V m dv main_v15 (ix3 (i 0) k c) := funext fun k => funext fun c => by
    show V m dv main_v15 (((cfg0.win 0).blk t).view.emb (ix3 r k c)) = _
    refine congrArg (V m dv main_v15) (funext fun a => Fin.ext ?_)
    match a with
    | ⟨0, _⟩ => show win0_0.index t (0 : Fin 3) * 800 + 1 * r.val = (i 0).val; omega
    | ⟨1, _⟩ => show win0_0.index t (1 : Fin 3) * 32 + 1 * k.val = k.val; omega
    | ⟨2, _⟩ => show win0_0.index t (2 : Fin 3) * 3 + 1 * c.val = c.val; omega
  have hnx : (fun (k : Fin 32) (d : Fin 64) => iblk m dv 1 t (ix3 r k d)) = fun k d => V m dv main_v22 (ix3 (i 0) k d) := funext fun k => funext fun d => by
    show V m dv main_v22 (((cfg0.win 1).blk t).view.emb (ix3 r k d)) = _
    refine congrArg (V m dv main_v22) (funext fun a => Fin.ext ?_)
    match a with
    | ⟨0, _⟩ => show win0_1.index t (0 : Fin 3) * 800 + 1 * r.val = (i 0).val; omega
    | ⟨1, _⟩ => show win0_1.index t (1 : Fin 3) * 32 + 1 * k.val = k.val; omega
    | ⟨2, _⟩ => show win0_1.index t (2 : Fin 3) * 64 + 1 * d.val = d.val; omega
  have hw : (fun (p : Fin 15) (d : Fin 64) (q : Fin 128) => iblk m dv 2 t (ix3 p d q)) = fun p d q => V m dv main_v23 (ix3 p d q) := funext fun p => funext fun d => funext fun q => by
    show V m dv main_v23 (((cfg0.win 2).blk t).view.emb (ix3 p d q)) = _
    refine congrArg (V m dv main_v23) (funext fun a => Fin.ext ?_)
    match a with
    | ⟨0, _⟩ => show win0_2.index t (0 : Fin 3) * 15 + 1 * p.val = p.val; omega
    | ⟨1, _⟩ => show win0_2.index t (1 : Fin 3) * 64 + 1 * d.val = d.val; omega
    | ⟨2, _⟩ => show win0_2.index t (2 : Fin 3) * 128 + 1 * q.val = q.val; omega
  have hkp : (fun (p : Fin 15) (c : Fin 3) => iblk m dv 3 t (ix2 p c)) = fun p c => V m dv main_arg5 (ix2 p c) := funext fun p => funext fun c => by
    show V m dv main_arg5 (((cfg0.win 3).blk t).view.emb (ix2 p c)) = _
    refine congrArg (V m dv main_arg5) (funext fun a => Fin.ext ?_)
    match a with
    | ⟨0, _⟩ => show win0_3.index t (0 : Fin 2) * 15 + 1 * p.val = p.val; omega
    | ⟨1, _⟩ => show win0_3.index t (1 : Fin 2) * 3 + 1 * c.val = c.val; omega
  have ho : o = i 1 := Fin.ext (by omega)
  rw [hnb, hnx, hw, hkp]
  exact congrArg (rowOut (fun p c => V m dv main_arg5 (ix2 p c)) (fun k c => V m dv main_v15 (ix3 (i 0) k c))
    (fun k d => V m dv main_v22 (ix3 (i 0) k d)) (fun p d q => V m dv main_v23 (ix3 p d q))) ho

/-- An index of the result is in point `t`'s block iff each coordinate is in the block's range on its axis. -/
theorem mem_blk (t : Fin cfg0.N) (i : S40000x128.Idx) :
    i ∈ ((cfg0.win 4).blk t).view.set ↔ ∀ a : Fin 2, win0_4.index t a * S800x128.size a ≤ (i a).val
      ∧ (i a).val < win0_4.index t a * S800x128.size a + S800x128.size a := by
  show i ∈ ((View.whole main_v24).slice (win0_4.rect t)).set ↔ _
  rw [View.set_slice_whole, Rect.mem_set_unit]
  exact Iff.rfl

/-- THE COVER: row `n` of the result is in the block of the point whose block index is `n / 800`. -/
theorem cover (i : S40000x128.Idx) :
    ∃ t : Fin cfg0.N, (cfg0.win 4).flush t = true ∧ i ∈ ((cfg0.win 4).blk t).view.set := by
  have hi0 : (i 0).val < 40000 := (i 0).isLt
  have hi1 : (i 1).val < 128 := (i 1).isLt
  obtain ⟨t, ht⟩ := index_onto ⟨(i 0).val / 800, by omega⟩
  have q0 : win0_4.index t (0 : Fin 2) = (i 0).val / 800 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 800 ≤ (i 0).val ∧ (i 0).val < win0_4.index t (0 : Fin 2) * 800 + 800; omega
  | ⟨1, _⟩ => show win0_4.index t (1 : Fin 2) * 128 ≤ (i 1).val ∧ (i 1).val < win0_4.index t (1 : Fin 2) * 128 + 128; omega

/-- THE RESULT ARRAY after the run is `G` of the arrays the windows stage. -/
theorem final (dv : Dev nD) :
    (dats m 0 dv).arrAt 4 cfg0.N = G (V m dv main_v15) (V m dv main_v22) (V m dv main_v23) (V m dv main_arg5) :=
  (dats m 0 dv).arrAt_eq_of_cover 4 _ (fun t _ => flushed_eq m dv t) cover

/-- The kernel's run, read: every weakly fair execution ends with the result at `G` of the staged arrays and the
    arguments unchanged. -/
theorem run : θ_run defs (onTc (τ := τ) (main (F := Ideal))) ⟨m, fun _ => 0, ρ⟩ fun r => ∀ dv : Dev nD,
      r.2.mem ((dv : Thread nD τ).loc main_v24) = G (V m dv main_v15) (V m dv main_v22) (V m dv main_v23) (V m dv main_arg5)
      ∧ r.2.mem ((dv : Thread nD τ).loc main_arg0) = m ((dv : Thread nD τ).loc main_arg0)
      ∧ r.2.mem ((dv : Thread nD τ).loc main_arg1) = m ((dv : Thread nD τ).loc main_arg1)
      ∧ r.2.mem ((dv : Thread nD τ).loc main_arg2) = m ((dv : Thread nD τ).loc main_arg2)
      ∧ r.2.mem ((dv : Thread nD τ).loc main_arg3) = m ((dv : Thread nD τ).loc main_arg3)
      ∧ r.2.mem ((dv : Thread nD τ).loc main_arg4) = m ((dv : Thread nD τ).loc main_arg4)
      ∧ r.2.mem ((dv : Thread nD τ).loc main_arg5) = m ((dv : Thread nD τ).loc main_arg5) :=
  (θ_run defs _ _).mono (fun r h dv => ⟨(h dv).1.trans (final m dv), (h dv).2⟩)
    (Cert.KernelIdeal.Value.run_blocks m ρ)

end Cert.KPConv.KernelValue

end
-- ==== Proof.RefRow.lean ====
/-
  The reference, read at coordinates, is the specification.

  The reference gathers the neighbours' offsets and features (two arrays this module never opens: both programs build them
  by the same operations), takes every neighbour's distance to every kernel point, turns it into an influence by a QUOTIENT
  by the extent, aggregates the features over the neighbours, sends kernel point p's aggregate through matrix p, sums over
  the kernel points, and divides by the count of neighbours with a positive feature sum — counted as integers, clipped
  below at one, then converted. Read at (n, o) from its last operation down to the two gathered arrays, it is the query
  point's output of the specification: the quotient by the extent is the product with the exact reciprocal, the squared
  differences do not see the order of their terms, and the integer count is the float count.
-/
import proofs.«174966_j71571335021213_1_alg».proof.Proof.Gen.ReferenceIdeal.Read
import proofs.«174966_j71571335021213_1_alg».proof.Proof.Spec
import proofs.«174966_j71571335021213_1_alg».proof.Proof.Consts
import Idealize.ShloMosaic.Lib.ValueIdx
import Idealize.ShloMosaic.PureOps.Ideal.Laws
import Idealize.ShloMosaic.PureOps.Reduce

noncomputable section

namespace Cert.KPConv.RefRow

open Cert.ReferenceIdeal Cert.ReferenceIdeal.Read Cert.ReferenceIdeal.Facts₀ Cert.KPConv
open Idealize.ShloMosaic Idealize.ShloMosaic.ValueIdx

/-- The clipped influence of neighbour `k` of query point `n` on kernel point `p`: the reference's `max (0, 1 − dist / extent)`
    with the difference taken neighbour-minus-kernel-point is the specification's `max (1 − dist · (1/extent), 0)` with it
    taken the other way round. -/
theorem influence_ref (x0 x1 : (⟨S40000x3, .f32⟩ : BufTy).Contents (Elt Ideal)) (x2 : (⟨S40000x32, .i32⟩ : BufTy).Contents (Elt Ideal)) (x5 : (⟨S15x3, .f32⟩ : BufTy).Contents (Elt Ideal)) (n : Fin 40000) (k : Fin 32) (p : Fin 15) :
    val_main_v25 (F := Ideal) x0 x1 x2 x5 (ix3 n k p)
      = influence (fun c => x5 (ix2 p c)) (fun c => val_main_v12 (F := Ideal) x0 x1 x2 (ix3 n k c)) := by
  rw [val_main_v25_apply, val_main_call0_v1_apply, val_main_call0_v0_apply, val_main_cst_4_apply, val_main_v24_apply,
    val_main_v23_apply, val_main_cst_3_apply, val_main_v22_apply, val_main_v21_apply, val_main_cst_2_apply,
    val_main_v20_apply, val_main_v19_apply, val_main_cst_1_apply]
  simp only [Ideal.maximumf_def, Ideal.subf_def, Ideal.hostDivf_def, Ideal.hostUnary_sqrt_def, Ideal.ofBits_def]
  rw [Ideal.ofBits_zero_f32, Consts.ofBits_one, Consts.div_extent, zero_add, max_comm]
  unfold influence invExtent
  refine congrArg (fun s => max (1 - Ideal.sqrt s * ((268435456 / 13421773 : ℝ) : EReal)) 0) (Finset.sum_congr rfl fun c _ => ?_)
  rw [val_main_v18_apply, val_main_v17_apply, val_main_v15_apply, val_main_v13_apply, val_main_v16_apply, val_main_v14_apply]
  have e1 : idx_main_v13 (idx_main_v15 (idx_main_v19 (ix3 n k p) c)) = ix3 n k c := funext fun a => Fin.ext (by match a with | ⟨0, _⟩ => rfl | ⟨1, _⟩ => rfl | ⟨2, _⟩ => rfl)
  have e2 : idx_main_v14 (idx_main_v16 (idx_main_v19 (ix3 n k p) c)) = ix2 p c := funext fun a => Fin.ext (by match a with | ⟨0, _⟩ => rfl | ⟨1, _⟩ => rfl)
  rw [e1, e2]
  simp only [Ideal.mulf_def, Ideal.subf_def]
  exact sq_sub_comm _ _

/-- The reference's first contraction, at `(n, p, d)`: the aggregate. -/
theorem aggregate_ref (x0 x1 : (⟨S40000x3, .f32⟩ : BufTy).Contents (Elt Ideal)) (x2 : (⟨S40000x32, .i32⟩ : BufTy).Contents (Elt Ideal)) (x3 : (⟨S40000x64, .f32⟩ : BufTy).Contents (Elt Ideal)) (x5 : (⟨S15x3, .f32⟩ : BufTy).Contents (Elt Ideal)) (n : Fin 40000) (p : Fin 15) (d : Fin 64) :
    val_main_v37 (F := Ideal) x0 x1 x2 x3 x5 (ix3 n p d) = aggregate (fun p c => x5 (ix2 p c)) (fun k c => val_main_v12 (F := Ideal) x0 x1 x2 (ix3 n k c)) (fun k d => val_main_v36 (F := Ideal) x2 x3 (ix3 n k d)) p d := by
  rw [val_main_v37_apply]
  unfold aggregate
  refine Finset.sum_congr rfl fun k _ => ?_
  rw [val_main_v26_apply]
  have e1 : idx_main_v26 (lidx_main_v37 (ix3 n p d) k) = ix3 n k p := funext fun a => Fin.ext (by match a with | ⟨0, _⟩ => rfl | ⟨1, _⟩ => rfl | ⟨2, _⟩ => rfl)
  have e2 : ridx_main_v37 (ix3 n p d) k = ix3 n k d := funext fun a => Fin.ext (by match a with | ⟨0, _⟩ => rfl | ⟨1, _⟩ => rfl | ⟨2, _⟩ => rfl)
  rw [e1, e2, influence_ref]

/-- The reference's second contraction summed over the kernel points from zero, at `(n, o)`. -/
theorem numerator_ref (x0 x1 : (⟨S40000x3, .f32⟩ : BufTy).Contents (Elt Ideal)) (x2 : (⟨S40000x32, .i32⟩ : BufTy).Contents (Elt Ideal)) (x3 : (⟨S40000x64, .f32⟩ : BufTy).Contents (Elt Ideal)) (x4 : (⟨S15x64x128, .f32⟩ : BufTy).Contents (Elt Ideal)) (x5 : (⟨S15x3, .f32⟩ : BufTy).Contents (Elt Ideal)) (n : Fin 40000) (o : Fin 128) :
    val_main_v40 (F := Ideal) x0 x1 x2 x3 x4 x5 (ix2 n o) = ∑ p : Fin 15, projected (fun p c => x5 (ix2 p c)) (fun k c => val_main_v12 (F := Ideal) x0 x1 x2 (ix3 n k c)) (fun k d => val_main_v36 (F := Ideal) x2 x3 (ix3 n k d)) (fun p d o => x4 (ix3 p d o)) p o := by
  rw [val_main_v40_apply, val_main_cst_8_apply, Ideal.ofBits_def, Ideal.ofBits_zero_f32, zero_add]
  refine Finset.sum_congr rfl fun p _ => ?_
  rw [val_main_v39_apply]
  unfold projected
  refine Finset.sum_congr rfl fun d _ => ?_
  rw [val_main_v38_apply]
  have e1 : idx_main_v38 (lidx_main_v39 (idx_main_v40 (ix2 n o) p) d) = ix3 n p d := funext fun a => Fin.ext (by match a with | ⟨0, _⟩ => rfl | ⟨1, _⟩ => rfl | ⟨2, _⟩ => rfl)
  have e2 : ridx_main_v39 (idx_main_v40 (ix2 n o) p) d = ix3 p d o := funext fun a => Fin.ext (by match a with | ⟨0, _⟩ => rfl | ⟨1, _⟩ => rfl | ⟨2, _⟩ => rfl)
  rw [e1, e2, aggregate_ref]

/-- The reference's divisor at `(n, o)`: the flags summed as 32-bit integers along the neighbours, clipped below at one,
    converted — the specification's count. -/
theorem count_ref (x2 : (⟨S40000x32, .i32⟩ : BufTy).Contents (Elt Ideal)) (x3 : (⟨S40000x64, .f32⟩ : BufTy).Contents (Elt Ideal)) (n : Fin 40000) (o : Fin 128) :
    val_main_v50 (F := Ideal) x2 x3 (ix2 n o) = neighbourCount (fun k d => val_main_v36 (F := Ideal) x2 x3 (ix3 n k d)) := by
  rw [val_main_v50_apply, val_main_v49_apply, val_main_v48_apply, val_main_v47_apply, val_main_v46_apply, val_main_c_12_apply]
  have e : idx_main_v49 (idx_main_v50 (ix2 n o)) = ix1 n := funext fun a => Fin.ext (by match a with | ⟨0, _⟩ => rfl)
  rw [e]
  unfold val_main_v45
  have hR : S40000x32.Reduces [1] S40000 := by decide
  rw [Host.reduce_eq_fold_single IntOp.addi _ _ reducesTo_S40000x32_S40000_d1 hR h_S_ (ix1 n)]
  have hcomp : (val_main_v44 (F := Ideal) x2 x3 ∘ hR.lift (ix1 n))
      = fun k : Fin 32 => (val_main_v43 (F := Ideal) x2 x3 (ix2 n k)).setWidth 32 :=
    funext fun k => by
      show val_main_v44 (F := Ideal) x2 x3 (hR.lift (ix1 n) k) = _
      rw [val_main_v44_apply]
      exact congrArg (fun i => (val_main_v43 (F := Ideal) x2 x3 i).setWidth 32)
        (funext fun a => Fin.ext (by match a with | ⟨0, _⟩ => rfl | ⟨1, _⟩ => rfl))
  rw [hcomp]
  refine (count_law (fun k => val_main_v43 (F := Ideal) x2 x3 (ix2 n k))).symm.trans ?_
  unfold neighbourCount counted
  refine congrArg (max · 1) (Finset.sum_congr rfl fun k _ => ?_)
  rw [val_main_v43_apply, val_main_v41_apply, val_main_v42_apply, val_main_cst_10_apply, val_main_cst_9_apply]
  have e3 : ∀ d : Fin 64, idx_main_v41 (ix2 n k) d = ix3 n k d := fun d => funext fun a => Fin.ext (by match a with | ⟨0, _⟩ => rfl | ⟨1, _⟩ => rfl | ⟨2, _⟩ => rfl)
  simp only [Ideal.ofBits_def, Ideal.ofBits_zero_f32, zero_add, Ideal.cmpf_def, e3]

/-- THE REFERENCE IS THE SPECIFICATION: its result array is `G` of the two gathered arrays (the neighbours' offsets and
    features as the reference builds them), the matrices and the kernel points. -/
theorem reference_eq (x0 x1 : (⟨S40000x3, .f32⟩ : BufTy).Contents (Elt Ideal)) (x2 : (⟨S40000x32, .i32⟩ : BufTy).Contents (Elt Ideal)) (x3 : (⟨S40000x64, .f32⟩ : BufTy).Contents (Elt Ideal)) (x4 : (⟨S15x64x128, .f32⟩ : BufTy).Contents (Elt Ideal)) (x5 : (⟨S15x3, .f32⟩ : BufTy).Contents (Elt Ideal)) :
    val_main_v51 (F := Ideal) x0 x1 x2 x3 x4 x5
      = G (val_main_v12 (F := Ideal) x0 x1 x2) (val_main_v36 (F := Ideal) x2 x3) x4 x5 := by
  funext i
  obtain ⟨n, o, rfl⟩ : ∃ (n : Fin 40000) (o : Fin 128), i = ix2 n o := ⟨i 0, i 1, eq_ix2 i⟩
  rw [val_main_v51_apply, Ideal.hostDivf_def, numerator_ref, count_ref]
  rfl

end Cert.KPConv.RefRow

end
-- ==== Proof.HostArrays.lean ====
/-
  The arrays the kernel's windows stage are the reference's own intermediate arrays.

  Before its region the kernel's program builds, on the host, the neighbours' offsets (the support points with a zero row
  appended, gathered at the neighbour indices, minus the query point) and the neighbours' features (the features with a zero
  row appended, gathered likewise), and changes the matrices' float format. The reference builds the first two by the same
  operations in the same order, and a change of float format is the identity on the extended reals. So each staged array is
  the reference's array of the same arguments — with neither gather opened.
-/
import proofs.«174966_j71571335021213_1_alg».proof.Proof.Gen.KernelIdeal.Frame
import proofs.«174966_j71571335021213_1_alg».proof.Proof.Gen.ReferenceIdeal.Read
import Idealize.ShloMosaic.Lib.StableHlo.Run

noncomputable section

namespace Cert.KPConv.HostArrays

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

-- thirty host operations precede the region: following one buffer through them exceeds the default budget
set_option maxHeartbeats 4000000 in
/-- The staged neighbour offsets are the reference's. -/
theorem staged_offsets (dv : Dev nD) :
    (V m dv main_v15 : S40000x32x3.Idx → EReal)
      = Cert.ReferenceIdeal.Read.val_main_v12 (F := Ideal) (m ((dv : Thread nD τ).loc main_arg0))
          (m ((dv : Thread nD τ).loc main_arg1)) (m ((dv : Thread nD τ).loc main_arg2)) := by
  dsimp only [V, hostOps0]
  after_results
  rfl

set_option maxHeartbeats 4000000 in
/-- The staged neighbour features are the reference's. -/
theorem staged_features (dv : Dev nD) :
    (V m dv main_v22 : S40000x32x64.Idx → EReal)
      = Cert.ReferenceIdeal.Read.val_main_v36 (F := Ideal) (m ((dv : Thread nD τ).loc main_arg2))
          (m ((dv : Thread nD τ).loc main_arg3)) := by
  dsimp only [V, hostOps0]
  after_results
  rfl

/-- The staged matrices are the argument's: the change of float format is the identity. -/
theorem staged_matrices (dv : Dev nD) :
    (V m dv main_v23 : S15x64x128.Idx → EReal) = m ((dv : Thread nD τ).loc main_arg4) := by
  dsimp only [V, hostOps0]
  after_results
  rfl

end Cert.KPConv.HostArrays

end
-- ==== Proof.lean ====
/-
  The kernel-point convolution kernel against its reference: the five claims.

  Both programs compute, for each of 40000 query points, from its 32 gathered neighbours (offsets and 64 features each),
  15 kernel points and 15 matrices 64 × 128,
      output o = ( Σ_p Σ_d ( Σ_k max (1 − |kp p − nb k| / extent, 0) · nx k d ) · w p d o ) / max (#{k : Σ_d nx k d > 0}, 1).
  The kernel multiplies by the reciprocal of the extent folded into one literal, which the certificate's table names the
  exact reciprocal of the dyadic number the reference divides by; with that reading the two are one function on the
  extended reals (Proof/Spec.lean states it and the laws that join the two arrangements; no law used needs the inputs to
  be finite, so the precondition is never opened):
    • the kernel's stored block, row by row, is the specification (Proof/KernelRow.lean), and the blocks tile the result
      (Proof/KernelValue.lean, over the generated run of the kernel's frame with its result array named);
    • the reference, read back from its last operation to the two gathered arrays, is the specification
      (Proof/RefRow.lean, over the generated read-at-an-index lemmas of the reference's run);
    • the arrays the kernel's windows stage are the reference's own gathered arrays (Proof/HostArrays.lean).
  The three frames are the generated ones; the kernel's idealization rewrote one constant, whose statement is the table's.
-/
import proofs.«174966_j71571335021213_1_alg».proof.Defs
import proofs.«174966_j71571335021213_1_alg».proof.Proof.Gen.Kernel
import proofs.«174966_j71571335021213_1_alg».proof.Proof.Gen.Kernel.Skeleton
import proofs.«174966_j71571335021213_1_alg».proof.Proof.Gen.Kernel.Launch
import proofs.«174966_j71571335021213_1_alg».proof.Proof.Gen.Kernel.Points
import proofs.«174966_j71571335021213_1_alg».proof.Proof.Gen.Kernel.Frame
import proofs.«174966_j71571335021213_1_alg».proof.Proof.Gen.KernelIdeal
import proofs.«174966_j71571335021213_1_alg».proof.Proof.Gen.KernelIdeal.Skeleton
import proofs.«174966_j71571335021213_1_alg».proof.Proof.Gen.KernelIdeal.Launch
import proofs.«174966_j71571335021213_1_alg».proof.Proof.Gen.KernelIdeal.Points
import proofs.«174966_j71571335021213_1_alg».proof.Proof.Gen.KernelIdeal.Frame
import proofs.«174966_j71571335021213_1_alg».proof.Proof.Gen.KernelIdeal.Value
import proofs.«174966_j71571335021213_1_alg».proof.Proof.Gen.ReferenceIdeal
import proofs.«174966_j71571335021213_1_alg».proof.Proof.Gen.ReferenceIdeal.Run
import proofs.«174966_j71571335021213_1_alg».proof.Proof.Gen.ReferenceIdeal.Read
import proofs.«174966_j71571335021213_1_alg».proof.Proof.Gen.Pre_finite_inputs
import proofs.«174966_j71571335021213_1_alg».proof.Proof.KernelValue
import proofs.«174966_j71571335021213_1_alg».proof.Proof.RefRow
import proofs.«174966_j71571335021213_1_alg».proof.Proof.HostArrays
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewritten constant: the table gives the folded reciprocal of the extent the value `268435456 / 13421773`,
    and the printed constant is that value on the extended reals. -/
theorem preserves : Cert.preserves_Kernel_KernelIdeal :=
  IdealRules.named_const.statement Cert.KernelIdeal.κ "inv_kp_extent" .f32 0x41A00000#32
    ((268435456 / 13421773 : ℝ) : EReal) rfl

/-- From memories agreeing on the arguments both programs end with the specification's array of the same gathered
    arrays, matrices and kernel points. -/
theorem algebraic : Cert.algebraic_KernelIdeal_ReferenceIdeal := by
  intro m ρ m' ρ' _ hagree
  refine ⟨fun dv => Cert.KPConv.G (Cert.KernelIdeal.Gen.V m dv Cert.KernelIdeal.main_v15)
      (Cert.KernelIdeal.Gen.V m dv Cert.KernelIdeal.main_v22) (Cert.KernelIdeal.Gen.V m dv Cert.KernelIdeal.main_v23)
      (Cert.KernelIdeal.Gen.V m dv Cert.KernelIdeal.main_arg5), Cert.KPConv.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  show Cert.ReferenceIdeal.Value.res_main_v51 m' c
    = Cert.KPConv.G (Cert.KernelIdeal.Gen.V m c Cert.KernelIdeal.main_v15)
        (Cert.KernelIdeal.Gen.V m c Cert.KernelIdeal.main_v22) (Cert.KernelIdeal.Gen.V m c Cert.KernelIdeal.main_v23)
        (Cert.KernelIdeal.Gen.V m c Cert.KernelIdeal.main_arg5)
  rw [Cert.ReferenceIdeal.Read.val_main_v51_eq, Cert.KPConv.RefRow.reference_eq, e0, e1, e2, e3, e4, e5,
    Cert.KPConv.HostArrays.staged_offsets m c, Cert.KPConv.HostArrays.staged_features m c,
    Cert.KPConv.HostArrays.staged_matrices m c, Cert.KernelIdeal.Gen.V_main_arg5 m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
